-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x47 : Shape := ⟨2, ![128, 47]⟩
abbrev S47 : Shape := ⟨1, ![47]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x47 : S_.BroadcastsInDim S128x47 (![] : Fin 0 → Fin S128x47.rank)
  reducesTo_S128x47_S_d0_1 : S128x47.ReducesTo [0, 1] S_
  bcast_S_S47 : S_.BroadcastsInDim S47 (![] : Fin 0 → Fin S47.rank)
  reducesTo_S47_S_d0 : S47.ReducesTo [0] S_

variable [Facts]

def fn_part2 {F : FTy → Type} [FloatOps F] (main_arg9 : FVec F S128x47 .f32) (main_arg10 : FVec F S128x47 .f32) (main_arg11 : FVec F S47 .f32) (main_v33 : IVec S_ 1) : IVec S_ 1 :=
  let main_v34 : FVec F S128x47 .f32 := Host.absf main_arg9
  let main_cst_12 : FVec F S_ .f32 := constant S_ .f32 0x7F800000#32
  let main_v35 : FVec F S128x47 .f32 := broadcastInDim S128x47 ![] bcast_S_S128x47 main_cst_12
  let main_v36 : IVec S128x47 1 := cmpf .olt main_v34 main_v35
  let main_c_13 : IVec S_ 1 := constantI S_ 1 1#1
  let main_v37 : IVec S_ 1 := (fun x v => Host.reduce IntOp.andi x v reducesTo_S128x47_S_d0_1 h_S_) main_v36 main_c_13
  let main_v38 : IVec S_ 1 := andi main_v33 main_v37
  let main_v39 : FVec F S128x47 .f32 := Host.absf main_arg10
  let main_cst_14 : FVec F S_ .f32 := constant S_ .f32 0x7F800000#32
  let main_v40 : FVec F S128x47 .f32 := broadcastInDim S128x47 ![] bcast_S_S128x47 main_cst_14
  let main_v41 : IVec S128x47 1 := cmpf .olt main_v39 main_v40
  let main_c_15 : IVec S_ 1 := constantI S_ 1 1#1
  let main_v42 : IVec S_ 1 := (fun x v => Host.reduce IntOp.andi x v reducesTo_S128x47_S_d0_1 h_S_) main_v41 main_c_15
  let main_v43 : IVec S_ 1 := andi main_v38 main_v42
  let main_v44 : FVec F S47 .f32 := Host.absf main_arg11
  let main_cst_16 : FVec F S_ .f32 := constant S_ .f32 0x7F800000#32
  let main_v45 : FVec F S47 .f32 := broadcastInDim S47 ![] bcast_S_S47 main_cst_16
  let main_v46 : IVec S47 1 := cmpf .olt main_v44 main_v45
  let main_c_17 : IVec S_ 1 := constantI S_ 1 1#1
  let main_v47 : IVec S_ 1 := (fun x v => Host.reduce IntOp.andi x v reducesTo_S47_S_d0 h_S_) main_v46 main_c_17
  let main_v48 : IVec S_ 1 := andi main_v43 main_v47
  main_v48

def fn_part1 {F : FTy → Type} [FloatOps F] (main_arg6 : FVec F S128x128 .f32) (main_arg7 : FVec F S128x128 .f32) (main_arg8 : FVec F S128 .f32) (main_arg9 : FVec F S128x47 .f32) (main_arg10 : FVec F S128x47 .f32) (main_arg11 : FVec F S47 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_v33

def fn {F : FTy → Type} [FloatOps F] (main_arg0 : FVec F S50000x128 .f32) (main_arg1 : IVec S800000 32) (main_arg2 : IVec S800000 32) (main_arg3 : FVec F S128x128 .f32) (main_arg4 : FVec F S128x128 .f32) (main_arg5 : FVec F S128 .f32) (main_arg6 : FVec F S128x128 .f32) (main_arg7 : FVec F S128x128 .f32) (main_arg8 : FVec F S128 .f32) (main_arg9 : FVec F S128x47 .f32) (main_arg10 : FVec F S128x47 .f32) (main_arg11 : FVec F S47 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_v13 main_v16
-- ==== Kernel.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x47 : Shape := ⟨2, ![128, 47]⟩
abbrev S47 : Shape := ⟨1, ![47]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S5000x128 : Shape := ⟨2, ![5000, 128]⟩
abbrev S5000x1 : Shape := ⟨2, ![5000, 1]⟩
abbrev S1x47 : Shape := ⟨2, ![1, 47]⟩
abbrev S50000x47 : Shape := ⟨2, ![50000, 47]⟩
abbrev S5000x47 : Shape := ⟨2, ![5000, 47]⟩

abbrev nBuf : Space → Nat
  | .hbm => 70
  | .vmem => 33
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x47, .f32⟩
  | .hbm, ⟨10, _⟩ => ⟨S128x47, .f32⟩
  | .hbm, ⟨11, _⟩ => ⟨S47, .f32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000x1, .f32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000x128, .f32⟩
  | .hbm, ⟨34, _⟩ => ⟨S_, .f32⟩
  | .hbm, ⟨35, _⟩ => ⟨S50000x128, .f32⟩
  | .hbm, ⟨36, _⟩ => ⟨S800000x1, .i32⟩
  | .hbm, ⟨37, _⟩ => ⟨S50000x128, .f32⟩
  | .hbm, ⟨38, _⟩ => ⟨S1x128, .f32⟩
  | .hbm, ⟨39, _⟩ => ⟨S50000x128, .f32⟩
  | .hbm, ⟨40, _⟩ => ⟨S_, .i32⟩
  | .hbm, ⟨41, _⟩ => ⟨S800000, .i32⟩
  | .hbm, ⟨42, _⟩ => ⟨S800000, .i1⟩
  | .hbm, ⟨43, _⟩ => ⟨S_, .i32⟩
  | .hbm, ⟨44, _⟩ => ⟨S800000, .i32⟩
  | .hbm, ⟨45, _⟩ => ⟨S800000, .i32⟩
  | .hbm, ⟨46, _⟩ => ⟨S800000, .i32⟩
  | .hbm, ⟨47, _⟩ => ⟨S800000x1, .i32⟩
  | .hbm, ⟨48, _⟩ => ⟨S800000x128, .f32⟩
  | .hbm, ⟨49, _⟩ => ⟨S_, .f32⟩
  | .hbm, ⟨50, _⟩ => ⟨S50000x128, .f32⟩
  | .hbm, ⟨51, _⟩ => ⟨S800000x1, .i32⟩
  | .hbm, ⟨52, _⟩ => ⟨S50000x128, .f32⟩
  | .hbm, ⟨53, _⟩ => ⟨S1x128, .f32⟩
  | .hbm, ⟨54, _⟩ => ⟨S50000x128, .f32⟩
  | .hbm, ⟨55, _⟩ => ⟨S_, .i32⟩
  | .hbm, ⟨56, _⟩ => ⟨S800000, .i32⟩
  | .hbm, ⟨57, _⟩ => ⟨S800000, .i1⟩
  | .hbm, ⟨58, _⟩ => ⟨S_, .i32⟩
  | .hbm, ⟨59, _⟩ => ⟨S800000, .i32⟩
  | .hbm, ⟨60, _⟩ => ⟨S800000, .i32⟩
  | .hbm, ⟨61, _⟩ => ⟨S800000, .i32⟩
  | .hbm, ⟨62, _⟩ => ⟨S800000x1, .i32⟩
  | .hbm, ⟨63, _⟩ => ⟨S800000x128, .f32⟩
  | .hbm, ⟨64, _⟩ => ⟨S_, .f32⟩
  | .hbm, ⟨65, _⟩ => ⟨S50000x128, .f32⟩
  | .hbm, ⟨66, _⟩ => ⟨S800000x1, .i32⟩
  | .hbm, ⟨67, _⟩ => ⟨S50000x128, .f32⟩
  | .hbm, ⟨68, _⟩ => ⟨S1x47, .f32⟩
  | .hbm, ⟨69, _⟩ => ⟨S50000x47, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x1, .f32⟩
  | .local _ .vmem, ⟨16, _⟩ => ⟨S5000x1, .f32⟩
  | .local _ .vmem, ⟨17, _⟩ => ⟨S128x128, .f32⟩
  | .local _ .vmem, ⟨18, _⟩ => ⟨S128x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x1, .f32⟩
  | .local _ .vmem, ⟨27, _⟩ => ⟨S5000x1, .f32⟩
  | .local _ .vmem, ⟨28, _⟩ => ⟨S128x47, .f32⟩
  | .local _ .vmem, ⟨29, _⟩ => ⟨S128x47, .f32⟩
  | .local _ .vmem, ⟨30, _⟩ => ⟨S1x47, .f32⟩
  | .local _ .vmem, ⟨31, _⟩ => ⟨S5000x47, .f32⟩
  | .local _ .vmem, ⟨32, _⟩ => ⟨S5000x47, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_cst_2 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_c : Ref sig .tc := ⟨.hbm, 25, rfl⟩
abbrev main_v9 : Ref sig .tc := ⟨.hbm, 26, rfl⟩
abbrev main_v10 : Ref sig .tc := ⟨.hbm, 27, rfl⟩
abbrev main_c_3 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_4 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_c_5 : Ref sig .tc := ⟨.hbm, 40, rfl⟩
abbrev main_v21 : Ref sig .tc := ⟨.hbm, 41, rfl⟩
abbrev main_v22 : Ref sig .tc := ⟨.hbm, 42, rfl⟩
abbrev main_c_6 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_7 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_c_8 : Ref sig .tc := ⟨.hbm, 55, rfl⟩
abbrev main_v33 : Ref sig .tc := ⟨.hbm, 56, rfl⟩
abbrev main_v34 : Ref sig .tc := ⟨.hbm, 57, rfl⟩
abbrev main_c_9 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_10 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg6_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem6_1 : DmaSem sig := 32

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x47 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x47 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x47 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x47 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  bcast_S_S50000x128 : S_.BroadcastsInDim S50000x128 (![] : Fin 0 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S47_S1x47 : S47.ShapeCasts S1x47
  inb_S128x47_S128x47_0_0 : ∀ a, (![0, 0] : Fin 2 → Nat) a + S128x47.size a ≤ S128x47.size a
  h_S128x47 : 0 < S128x47.numel
  inb_S1x47_S1x47_0_0 : ∀ a, (![0, 0] : Fin 2 → Nat) a + S1x47.size a ≤ S1x47.size a
  h_S1x47 : 0 < S1x47.numel
  shapeCasts_S1x47_S1x47 : S1x47.ShapeCasts S1x47
  broadcasts_S1x47_S5000x47 : S1x47.Broadcasts S5000x47
  inb_S5000x47_S5000x47_0_0 : ∀ a, (![0, 0] : Fin 2 → Nat) a + S5000x47.size a ≤ S5000x47.size a
  h_S5000x47 : 0 < S5000x47.numel
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S5000x128_S128x47_S5000x47_1_0_0_1_n_n_wf : DotDims.WF S5000x128 S128x47 S5000x47 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S50000x1.size a
  hwx2_2 : ∀ i : grid2.Coords, EltTy.bits .f32 = 32 ∨ (Rect.block (s := S50000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x47.size a ≤ S128x47.size a
  hwx2_3 : ∀ i : grid2.Coords, EltTy.bits .f32 = 32 ∨ (Rect.block (s := S128x47) S128x47.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x47.size a ≤ S128x47.size a
  hwx2_4 : ∀ i : grid2.Coords, EltTy.bits .f32 = 32 ∨ (Rect.block (s := S128x47) S128x47.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x47.size a ≤ S1x47.size a
  hwx2_5 : ∀ i : grid2.Coords, EltTy.bits .f32 = 32 ∨ (Rect.block (s := S1x47) S1x47.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x47.size a ≤ S50000x47.size a
  hwx2_6 : ∀ i : grid2.Coords, EltTy.bits .f32 = 32 ∨ (Rect.block (s := S50000x47) S5000x47.size (cc2_transform_6 i) (hinb2_6 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x47_S5000x47_1_0_0_1_n_n : DotDims S5000x128 S128x47 S5000x47 where
  lhsContracting := [1]
  rhsContracting := [0]
  lhsNonContracting := [0]
  rhsNonContracting := [1]
  lhsBatch := []
  rhsBatch := []
  wf := dot_S5000x128_S128x47_S5000x47_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v20) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v32) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v32) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v42) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v8) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S128x47.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S128x47.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v43) S1x47.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v44) S5000x47.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x47 : Shape := ⟨2, ![128, 47]⟩
abbrev S47 : Shape := ⟨1, ![47]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S50000x47 : Shape := ⟨2, ![50000, 47]⟩
abbrev S1x47 : Shape := ⟨2, ![1, 47]⟩

abbrev nBuf : Space → Nat
  | .hbm => 111
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x47, .f32⟩
  | .hbm, ⟨10, _⟩ => ⟨S128x47, .f32⟩
  | .hbm, ⟨11, _⟩ => ⟨S47, .f32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S50000x128, .f32⟩
  | .hbm, ⟨38, _⟩ => ⟨S50000x128, .f32⟩
  | .hbm, ⟨39, _⟩ => ⟨S50000x128, .f32⟩
  | .hbm, ⟨40, _⟩ => ⟨S1x128, .f32⟩
  | .hbm, ⟨41, _⟩ => ⟨S50000x128, .f32⟩
  | .hbm, ⟨42, _⟩ => ⟨S50000x128, .f32⟩
  | .hbm, ⟨43, _⟩ => ⟨S_, .f32⟩
  | .hbm, ⟨44, _⟩ => ⟨S50000x128, .f32⟩
  | .hbm, ⟨45, _⟩ => ⟨S50000x128, .f32⟩
  | .hbm, ⟨46, _⟩ => ⟨S_, .i32⟩
  | .hbm, ⟨47, _⟩ => ⟨S800000, .i32⟩
  | .hbm, ⟨48, _⟩ => ⟨S800000, .i1⟩
  | .hbm, ⟨49, _⟩ => ⟨S_, .i32⟩
  | .hbm, ⟨50, _⟩ => ⟨S800000, .i32⟩
  | .hbm, ⟨51, _⟩ => ⟨S800000, .i32⟩
  | .hbm, ⟨52, _⟩ => ⟨S800000, .i32⟩
  | .hbm, ⟨53, _⟩ => ⟨S800000x1, .i32⟩
  | .hbm, ⟨54, _⟩ => ⟨S800000x128, .f32⟩
  | .hbm, ⟨55, _⟩ => ⟨S_, .f32⟩
  | .hbm, ⟨56, _⟩ => ⟨S50000x128, .f32⟩
  | .hbm, ⟨57, _⟩ => ⟨S800000x1, .i32⟩
  | .hbm, ⟨58, _⟩ => ⟨S50000x128, .f32⟩
  | .hbm, ⟨59, _⟩ => ⟨S_, .f32⟩
  | .hbm, ⟨60, _⟩ => ⟨S800000, .f32⟩
  | .hbm, ⟨61, _⟩ => ⟨S_, .f32⟩
  | .hbm, ⟨62, _⟩ => ⟨S50000, .f32⟩
  | .hbm, ⟨63, _⟩ => ⟨S800000x1, .i32⟩
  | .hbm, ⟨64, _⟩ => ⟨S50000, .f32⟩
  | .hbm, ⟨65, _⟩ => ⟨S_, .f32⟩
  | .hbm, ⟨66, _⟩ => ⟨S50000, .f32⟩
  | .hbm, ⟨67, _⟩ => ⟨S50000, .f32⟩
  | .hbm, ⟨68, _⟩ => ⟨S50000x1, .f32⟩
  | .hbm, ⟨69, _⟩ => ⟨S50000x128, .f32⟩
  | .hbm, ⟨70, _⟩ => ⟨S50000x128, .f32⟩
  | .hbm, ⟨71, _⟩ => ⟨S50000x128, .f32⟩
  | .hbm, ⟨72, _⟩ => ⟨S50000x128, .f32⟩
  | .hbm, ⟨73, _⟩ => ⟨S50000x128, .f32⟩
  | .hbm, ⟨74, _⟩ => ⟨S1x128, .f32⟩
  | .hbm, ⟨75, _⟩ => ⟨S50000x128, .f32⟩
  | .hbm, ⟨76, _⟩ => ⟨S50000x128, .f32⟩
  | .hbm, ⟨77, _⟩ => ⟨S_, .f32⟩
  | .hbm, ⟨78, _⟩ => ⟨S50000x128, .f32⟩
  | .hbm, ⟨79, _⟩ => ⟨S50000x128, .f32⟩
  | .hbm, ⟨80, _⟩ => ⟨S_, .i32⟩
  | .hbm, ⟨81, _⟩ => ⟨S800000, .i32⟩
  | .hbm, ⟨82, _⟩ => ⟨S800000, .i1⟩
  | .hbm, ⟨83, _⟩ => ⟨S_, .i32⟩
  | .hbm, ⟨84, _⟩ => ⟨S800000, .i32⟩
  | .hbm, ⟨85, _⟩ => ⟨S800000, .i32⟩
  | .hbm, ⟨86, _⟩ => ⟨S800000, .i32⟩
  | .hbm, ⟨87, _⟩ => ⟨S800000x1, .i32⟩
  | .hbm, ⟨88, _⟩ => ⟨S800000x128, .f32⟩
  | .hbm, ⟨89, _⟩ => ⟨S_, .f32⟩
  | .hbm, ⟨90, _⟩ => ⟨S50000x128, .f32⟩
  | .hbm, ⟨91, _⟩ => ⟨S800000x1, .i32⟩
  | .hbm, ⟨92, _⟩ => ⟨S50000x128, .f32⟩
  | .hbm, ⟨93, _⟩ => ⟨S_, .f32⟩
  | .hbm, ⟨94, _⟩ => ⟨S800000, .f32⟩
  | .hbm, ⟨95, _⟩ => ⟨S_, .f32⟩
  | .hbm, ⟨96, _⟩ => ⟨S50000, .f32⟩
  | .hbm, ⟨97, _⟩ => ⟨S800000x1, .i32⟩
  | .hbm, ⟨98, _⟩ => ⟨S50000, .f32⟩
  | .hbm, ⟨99, _⟩ => ⟨S_, .f32⟩
  | .hbm, ⟨100, _⟩ => ⟨S50000, .f32⟩
  | .hbm, ⟨101, _⟩ => ⟨S50000, .f32⟩
  | .hbm, ⟨102, _⟩ => ⟨S50000x1, .f32⟩
  | .hbm, ⟨103, _⟩ => ⟨S50000x128, .f32⟩
  | .hbm, ⟨104, _⟩ => ⟨S50000x128, .f32⟩
  | .hbm, ⟨105, _⟩ => ⟨S50000x47, .f32⟩
  | .hbm, ⟨106, _⟩ => ⟨S50000x47, .f32⟩
  | .hbm, ⟨107, _⟩ => ⟨S50000x47, .f32⟩
  | .hbm, ⟨108, _⟩ => ⟨S1x47, .f32⟩
  | .hbm, ⟨109, _⟩ => ⟨S50000x47, .f32⟩
  | .hbm, ⟨110, _⟩ => ⟨S50000x47, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_1 : Ref sig .tc := ⟨.hbm, 25, rfl⟩
abbrev main_v10 : Ref sig .tc := ⟨.hbm, 26, rfl⟩
abbrev main_cst_2 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_3 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_call0_cst : Ref sig .tc := ⟨.hbm, 43, rfl⟩
abbrev main_call0_v0 : Ref sig .tc := ⟨.hbm, 44, rfl⟩
abbrev main_v25 : Ref sig .tc := ⟨.hbm, 45, rfl⟩
abbrev main_c_4 : Ref sig .tc := ⟨.hbm, 46, rfl⟩
abbrev main_v26 : Ref sig .tc := ⟨.hbm, 47, rfl⟩
abbrev main_v27 : Ref sig .tc := ⟨.hbm, 48, rfl⟩
abbrev main_c_5 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_6 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_7 : Ref sig .tc := ⟨.hbm, 59, rfl⟩
abbrev main_v36 : Ref sig .tc := ⟨.hbm, 60, rfl⟩
abbrev main_cst_8 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_9 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_call1_cst : Ref sig .tc := ⟨.hbm, 77, rfl⟩
abbrev main_call1_v0 : Ref sig .tc := ⟨.hbm, 78, rfl⟩
abbrev main_v51 : Ref sig .tc := ⟨.hbm, 79, rfl⟩
abbrev main_c_10 : Ref sig .tc := ⟨.hbm, 80, rfl⟩
abbrev main_v52 : Ref sig .tc := ⟨.hbm, 81, rfl⟩
abbrev main_v53 : Ref sig .tc := ⟨.hbm, 82, rfl⟩
abbrev main_c_11 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_cst_12 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_cst_13 : Ref sig .tc := ⟨.hbm, 93, rfl⟩
abbrev main_v62 : Ref sig .tc := ⟨.hbm, 94, rfl⟩
abbrev main_cst_14 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_cst_15 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S47_S1x47_1 : S47.BroadcastsInDim S1x47 (![1] : Fin 1 → Fin S1x47.rank)
  bcast_S1x47_S50000x47_0_1 : S1x47.BroadcastsInDim S50000x47 (![0, 1] : Fin 2 → Fin S50000x47.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  dot_S50000x128_S128x47_S50000x47_1_0_0_1_n_n_wf : DotDims.WF S50000x128 S128x47 S50000x47 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x47_S50000x47_1_0_0_1_n_n : DotDims S50000x128 S128x47 S50000x47 where
  lhsContracting := [1]
  rhsContracting := [0]
  lhsNonContracting := [0]
  rhsNonContracting := [1]
  lhsBatch := []
  rhsBatch := []
  wf := dot_S50000x128_S128x47_S50000x47_1_0_0_1_n_n_wf

class Facts : Prop extends Facts₀ where

variable [Facts]
-- ==== Proof.KernelRun.lean ====
/-
  The idealized kernel's run with its result read.

  The program is three pallas_calls among stretches of host operations. Its run is the launch of those six segments;
  the last thread state holds every unscoped buffer at the contents the last region leaves, so the final memory at
  the result buffer is those contents too. Stated here: every weakly fair execution terminates, the result buffer
  ends at the last boundary's contents, and the twelve arguments end as launched.
-/
import proofs.«107789_j5557687681533_2_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the contents the last region leaves, the arguments as launched. -/
theorem run_main : θ_run defs (onTc (τ := τ) (main (F := F))) ⟨m, fun _ => 0, ρ⟩ (fun r => ∀ c : Dev nD,
      r.2.mem ((c.tc : Thread nD τ).loc main_v44) = W6 m ρ c (Proc.devRef .tc main_v44)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v44 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c)⟩)

end Cert.KernelIdeal.Hand

end
-- ==== Proof.LibPlainMatmul.lean ====
/-
  A plain matrix product read at an entry.

  At the exact instance a `tpu.matmul` into the zero accumulator is, at each output index, the sum over the dot's
  contraction index of the products of the operands at the indices the dimension numbers name. For the plainest
  dimension numbers — an M × K matrix times a K × N matrix, one contracted axis, no batch axis — the operand indices at
  output (y, j) and contraction coordinate k are (y, k) and (k, j), and the contraction index is its one coordinate; so
  the entry is the familiar `Σₖ a[y, k] · w[k, j]` over `Fin K`. The four coordinate facts are taken as hypotheses:
  for a concrete record each is one line (two by the record's own single-axis lemmas, two by unfolding the index
  function at a decided membership).
-/
import Idealize.ShloMosaic.PureOps.Ideal.Laws
import Idealize.ShloMosaic.Lib.ValueIdx

noncomputable section

namespace Cert.EdgeScore.Lib

open Idealize.ShloMosaic Idealize.ShloMosaic.ValueIdx

/-- Entry (y, j) of an M × K by K × N product accumulated into zero is `Σₖ a (y, k) · w (k, j)`, `k` over `Fin K`:
    the contraction index re-read as its one coordinate (`hr`, `hs`: one contracted axis of extent K), the operand
    indices by their coordinates (`hl0`, `hl1`, `hr0`, `hr1`). Nothing of real arithmetic is used, so it holds
    with infinite entries too. -/
theorem matmul_zero_ix2_apply {M K N : Nat} {φ₁ φ₂ : FTy}
    (d : DotDims ⟨2, ![M, K]⟩ ⟨2, ![K, N]⟩ ⟨2, ![M, N]⟩) (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (prec : Option ContractPrecision) (a : FVec Ideal ⟨2, ![M, K]⟩ φ₁) (w : FVec Ideal ⟨2, ![K, N]⟩ φ₂)
    (y : Fin M) (j : Fin N) :
    FloatOps.matmul d prec a w (constant ⟨2, ![M, N]⟩ .f32 0x00000000#32) (ix2 y j)
      = ∑ k : Fin K, a (ix2 y k) * w (ix2 k j) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 y j) ((contrEquiv1 d K hr hs).symm k) = ix2 y k := funext fun c => Fin.ext (by
    match c with
    | ⟨0, _⟩ => exact hl0 _ _
    | ⟨1, _⟩ => exact (hl1 _ _).trans hk)
  have er : d.rhsIdx (ix2 y j) ((contrEquiv1 d K hr hs).symm k) = ix2 k j := funext fun c => Fin.ext (by
    match c with
    | ⟨0, _⟩ => exact (hr0 _ _).trans hk
    | ⟨1, _⟩ => exact hr1 _ _)
  rw [el, er]

end Cert.EdgeScore.Lib

end
-- ==== Proof.LibColumn.lean ====
/-
  A column vector's layout operations read at an index: the two forms a reduction that keeps its axis
  (a row sum, a row maximum kept as an `[a, 1]` column) needs and Lib/ValueLayout.lean does not have.
  A one-axis array cast to a column reads the operand at the row; a column broadcast along the lanes reads
  the column at the row, whatever the lane.
-/
import Idealize.ShloMosaic.Lib.ValueIdx
import Idealize.ShloMosaic.Lib.ValueLayout
import Idealize.ShloMosaic.Lib.Pipeline.Value

namespace Cert.LibColumn

open Idealize.ShloMosaic Idealize.ShloMosaic.ValueIdx

variable {α : Type}

/-- An `[a]` array cast to `[a, 1]` reads, at `(i, u)`, the operand at `i`, whatever the unit coordinate `u`:
    row-major, `(i, u)` is element `i * 1 + u = i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## Sums over the indices of a one-axis array and of a column -/

/-- The indices of a one-axis shape are its coordinates. -/
def idxEquiv1 {n : ℕ} : (⟨1, ![n]⟩ : Shape).Idx ≃ Fin n where
  toFun i := i 0
  invFun r := ix1 r
  left_inv i := (eq_ix1 i).symm
  right_inv _ := rfl

/-- A sum over the indices of an `[n]` array is the sum over its `n` coordinates. -/
theorem sum_idx1 {M : Type*} [AddCommMonoid M] {n : ℕ} (f : (⟨1, ![n]⟩ : Shape).Idx → M) :
    ∑ i, f i = ∑ r : Fin n, f (ix1 r) :=
  (Equiv.sum_comp idxEquiv1.symm f).symm

/-- A sum over the indices of an `[n, 1]` column is the sum over its `n` rows. -/
theorem sum_idx_col {M : Type*} [AddCommMonoid M] {n : ℕ} (f : (⟨2, ![n, 1]⟩ : Shape).Idx → M) :
    ∑ i, f i = ∑ r : Fin n, f (ix2 r (0 : Fin 1)) := by
  rw [sum_idx2]
  exact Finset.sum_congr rfl fun r _ => Fin.sum_univ_one _

end Cert.LibColumn
-- ==== Proof.Pay.lean ====
/-
  What one grid step of each layer's kernel stores, entry by entry.

  A step loads 5000 rows of the features and of the neighbour sums, the rows' column of reciprocal counts, the two
  weight matrices and the one-row bias; it multiplies each neighbour-sum row by its reciprocal count, contracts both
  row blocks with their weights on the matrix unit (into zero accumulators: entry (r, j) is the sum over the 128
  inner indices of the products), adds the two products and the bias row, and — in the two hidden layers — takes the
  maximum with the zero word. Changing the operands' float format on the way into the matrix unit is the identity
  on the extended reals.
-/
import proofs.«107789_j5557687681533_2_alg».proof.Proof.Gen.KernelIdeal.Skeleton
import proofs.«107789_j5557687681533_2_alg».proof.Proof.LibPlainMatmul
import proofs.«107789_j5557687681533_2_alg».proof.Proof.LibColumn
import Idealize.ShloMosaic.Lib.ValueIdx
import Idealize.ShloMosaic.Lib.ValueLayout
import Idealize.ShloMosaic.Lib.Pipeline.Value
import Idealize.ShloMosaic.PureOps.Ideal.Laws

open scoped BigOperators

noncomputable section

namespace Cert.KernelIdeal.Hand

open Cert.KernelIdeal Cert.KernelIdeal.Gen Idealize.ShloMosaic Idealize.ShloMosaic.ValueIdx

/-! ## The two dimension records' operand coordinates -/

theorem dotH_l0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem dotH_l1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem dotH_r0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem dotH_r1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

theorem dotO_l0 (i : S5000x47.Idx) (q : dot_S5000x128_S128x47_S5000x47_1_0_0_1_n_n.contr.Idx) :
    (dot_S5000x128_S128x47_S5000x47_1_0_0_1_n_n.lhsIdx i q 0).val = (i 0).val := by
  unfold DotDims.lhsIdx
  rw [dif_neg (show ¬(0 : Fin S5000x128.rank) ∈ dot_S5000x128_S128x47_S5000x47_1_0_0_1_n_n.lhsBatch by decide), dif_pos (show (0 : Fin S5000x128.rank) ∈ dot_S5000x128_S128x47_S5000x47_1_0_0_1_n_n.lhsNonContracting by decide)]
  rfl
theorem dotO_l1 (i : S5000x47.Idx) (q : dot_S5000x128_S128x47_S5000x47_1_0_0_1_n_n.contr.Idx) :
    (dot_S5000x128_S128x47_S5000x47_1_0_0_1_n_n.lhsIdx i q 1).val = (q ⟨0, by decide⟩).val :=
  dot_S5000x128_S128x47_S5000x47_1_0_0_1_n_n.lhsIdx_val_of_single rfl i q
theorem dotO_r0 (i : S5000x47.Idx) (q : dot_S5000x128_S128x47_S5000x47_1_0_0_1_n_n.contr.Idx) :
    (dot_S5000x128_S128x47_S5000x47_1_0_0_1_n_n.rhsIdx i q 0).val = (q ⟨0, by decide⟩).val :=
  dot_S5000x128_S128x47_S5000x47_1_0_0_1_n_n.rhsIdx_val_of_single rfl i q
theorem dotO_r1 (i : S5000x47.Idx) (q : dot_S5000x128_S128x47_S5000x47_1_0_0_1_n_n.contr.Idx) :
    (dot_S5000x128_S128x47_S5000x47_1_0_0_1_n_n.rhsIdx i q 1).val = (i 1).val := by
  unfold DotDims.rhsIdx
  rw [dif_neg (show ¬(1 : Fin S128x47.rank) ∈ dot_S5000x128_S128x47_S5000x47_1_0_0_1_n_n.rhsBatch by decide), dif_pos (show (1 : Fin S128x47.rank) ∈ dot_S5000x128_S128x47_S5000x47_1_0_0_1_n_n.rhsNonContracting by decide)]
  rfl

/-- A product of a 5000 x 128 block with a 128 x 128 matrix into zero, at an entry. -/
theorem matmulH_apply (a : FVec Ideal S5000x128 .bf16) (w : FVec Ideal S128x128 .bf16) (r : Fin 5000) (j : Fin 128) :
    matmul dot_S5000x128_S128x128_S5000x128_1_0_0_1_n_n none a w (constant S5000x128 .f32 0x00000000#32) (ix2 r j)
      = ∑ k : Fin 128, a (ix2 r k) * w (ix2 k j) :=
  Cert.EdgeScore.Lib.matmul_zero_ix2_apply dot_S5000x128_S128x128_S5000x128_1_0_0_1_n_n rfl rfl dotH_l0 dotH_l1 dotH_r0 dotH_r1 none a w r j

/-- A product of a 5000 x 128 block with a 128 x 47 matrix into zero, at an entry. -/
theorem matmulO_apply (a : FVec Ideal S5000x128 .bf16) (w : FVec Ideal S128x47 .bf16) (r : Fin 5000) (j : Fin 47) :
    matmul dot_S5000x128_S128x47_S5000x47_1_0_0_1_n_n none a w (constant S5000x47 .f32 0x00000000#32) (ix2 r j)
      = ∑ k : Fin 128, a (ix2 r k) * w (ix2 k j) :=
  Cert.EdgeScore.Lib.matmul_zero_ix2_apply dot_S5000x128_S128x47_S5000x47_1_0_0_1_n_n rfl rfl dotO_l0 dotO_l1 dotO_r0 dotO_r1 none a w r j

/-! ## The three payloads at an entry -/

/-- Layer 0's step at row `r` of the block, output feature `j`. -/
theorem pay0_apply (x0 x1 : Vec Ideal S5000x128 .f32) (x2 : Vec Ideal S5000x1 .f32) (x3 x4 : Vec Ideal S128x128 .f32)
    (x5 : Vec Ideal S1x128 .f32) (r : Fin 5000) (j : Fin 128) :
    k0_pay1 x0 x1 x2 x3 x4 x5 (ix2 r j)
      = max ((∑ k : Fin 128, x0 (ix2 r k) * x3 (ix2 k j)
          + ∑ k : Fin 128, (x1 (ix2 r k) * x2 (ix2 r (0 : Fin 1))) * x4 (ix2 k j)) + x5 (ix2 (0 : Fin 1) j))
        (Ideal.ofBits .f32 0x00000000#32) := by
  unfold k0_pay1
  simp only [maximumf_apply, addf_apply, broadcast_apply, matmulH_apply, truncf_apply, mulf_apply, shapeCast_self,
    Cert.LibColumn.broadcastTo_a1_ab_apply, broadcastTo_1b_ab_apply]
  rfl

/-- Layer 1's step at row `r` of the block, output feature `j`. -/
theorem pay1_apply (x0 x1 : Vec Ideal S5000x128 .f32) (x2 : Vec Ideal S5000x1 .f32) (x3 x4 : Vec Ideal S128x128 .f32)
    (x5 : Vec Ideal S1x128 .f32) (r : Fin 5000) (j : Fin 128) :
    k1_pay1 x0 x1 x2 x3 x4 x5 (ix2 r j)
      = max ((∑ k : Fin 128, x0 (ix2 r k) * x3 (ix2 k j)
          + ∑ k : Fin 128, (x1 (ix2 r k) * x2 (ix2 r (0 : Fin 1))) * x4 (ix2 k j)) + x5 (ix2 (0 : Fin 1) j))
        (Ideal.ofBits .f32 0x00000000#32) := by
  unfold k1_pay1
  simp only [maximumf_apply, addf_apply, broadcast_apply, matmulH_apply, truncf_apply, mulf_apply, shapeCast_self,
    Cert.LibColumn.broadcastTo_a1_ab_apply, broadcastTo_1b_ab_apply]
  rfl

/-- Layer 2's step at row `r` of the block, output feature `j`: no rectifier. -/
theorem pay2_apply (x0 x1 : Vec Ideal S5000x128 .f32) (x2 : Vec Ideal S5000x1 .f32) (x3 x4 : Vec Ideal S128x47 .f32)
    (x5 : Vec Ideal S1x47 .f32) (r : Fin 5000) (j : Fin 47) :
    k2_pay1 x0 x1 x2 x3 x4 x5 (ix2 r j)
      = (∑ k : Fin 128, x0 (ix2 r k) * x3 (ix2 k j)
          + ∑ k : Fin 128, (x1 (ix2 r k) * x2 (ix2 r (0 : Fin 1))) * x4 (ix2 k j)) + x5 (ix2 (0 : Fin 1) j) := by
  unfold k2_pay1
  simp only [addf_apply, matmulO_apply, truncf_apply, mulf_apply, shapeCast_self,
    Cert.LibColumn.broadcastTo_a1_ab_apply, broadcastTo_1b_ab_apply]

end Cert.KernelIdeal.Hand

end
-- ==== Proof.LayerSpec.lean ====
/-
  One layer of a mean-aggregating graph network, entry by entry, on the extended reals.

  A layer takes the node features `h` (50000 rows of 128), the rows' neighbour sums `s`, the clamped neighbour counts
  `mc`, two weight matrices and a bias, and gives at node `y`, output feature `j`

      Σₖ h[y,k]·ws[k,j]  +  Σₖ (s[y,k] / mc[y])·wn[k,j]  +  b[j],

  the hidden layers followed by a maximum with the zero word. One program divides the neighbour sum by the count;
  the other multiplies it by the reciprocal 1 / mc[y], kept as a column, and keeps the bias as a one-row matrix. The
  two forms agree whenever the count is not zero, at the infinities too: x / c = x · (1 / c) for every extended real x
  and every c ≠ 0. A count clamped from below by one is never zero.
-/
import Idealize.ShloMosaic.PureOps.Ideal
import Idealize.ShloMosaic.Lib.ValueIdx
import Idealize.ShloMosaic.Lib.IdealHost

open scoped BigOperators

noncomputable section

namespace Cert.Sage

open Idealize.ShloMosaic Idealize.ShloMosaic.ValueIdx

/-- A matrix of extended reals with literal extents. -/
abbrev Mat (a b : Nat) := (⟨2, ![a, b]⟩ : Shape).Idx → EReal
/-- A one-axis array of extended reals. -/
abbrev Arr (a : Nat) := (⟨1, ![a]⟩ : Shape).Idx → EReal

/-- The layer before its rectifier, at node `y` and output feature `j`, with the neighbour sum DIVIDED by the count. -/
def affineAt {N : Nat} (h s : Mat 50000 128) (mc : Arr 50000) (ws wn : Mat 128 N) (b : Arr N)
    (y : Fin 50000) (j : Fin N) : EReal :=
  (∑ k : Fin 128, h (ix2 y k) * ws (ix2 k j)
    + ∑ k : Fin 128, Ideal.div (s (ix2 y k)) (mc (ix1 y)) * wn (ix2 k j)) + b (ix1 j)

/-- The same with the neighbour sum MULTIPLIED by a column `inv` and the bias read off a one-row matrix. -/
def scaledAt {N : Nat} (h s : Mat 50000 128) (inv : Mat 50000 1) (ws wn : Mat 128 N) (brow : Mat 1 N)
    (y : Fin 50000) (j : Fin N) : EReal :=
  (∑ k : Fin 128, h (ix2 y k) * ws (ix2 k j)
    + ∑ k : Fin 128, (s (ix2 y k) * inv (ix2 y (0 : Fin 1))) * wn (ix2 k j)) + brow (ix2 (0 : Fin 1) j)

/-- A quotient by a nonzero divisor is the product with the divisor's reciprocal, at the infinities too. -/
theorem div_eq_mul_recip (x c : EReal) (hc : c ≠ 0) : Ideal.div x c = x * Ideal.div 1 c := by
  simp only [Ideal.div, if_neg hc, one_mul]

/-- When the column holds the reciprocals of the (nonzero) counts and the row holds the bias, the two forms agree. -/
theorem scaledAt_eq_affineAt {N : Nat} (h s : Mat 50000 128) (inv : Mat 50000 1) (mc : Arr 50000) (ws wn : Mat 128 N)
    (brow : Mat 1 N) (b : Arr N)
    (hinv : ∀ y : Fin 50000, inv (ix2 y (0 : Fin 1)) = Ideal.div (Ideal.ofBits .f32 0x3F800000#32) (mc (ix1 y)))
    (hb : ∀ j : Fin N, brow (ix2 (0 : Fin 1) j) = b (ix1 j)) (hmc : ∀ y : Fin 50000, mc (ix1 y) ≠ 0)
    (y : Fin 50000) (j : Fin N) :
    scaledAt h s inv ws wn brow y j = affineAt h s mc ws wn b y j := by
  unfold scaledAt affineAt
  rw [hb j, hinv y, Ideal.ofBits_one_f32]
  refine congrArg (fun t => (_ + t) + _) (Finset.sum_congr rfl fun k _ => ?_)
  rw [← div_eq_mul_recip _ _ (hmc y)]

/-- A count clamped from below by the word for one is not zero. -/
theorem clamp_ne_zero (c : EReal) : max c (Ideal.ofBits .f32 0x3F800000#32) ≠ 0 := by
  rw [Ideal.ofBits_one_f32]
  exact (lt_of_lt_of_le zero_lt_one (le_max_right c 1)).ne'

/-- A hidden layer as an array: the affine part under a maximum with the zero word. -/
def hidden (h s : Mat 50000 128) (mc : Arr 50000) (ws wn : Mat 128 128) (b : Arr 128) : Mat 50000 128 :=
  fun i => max (affineAt h s mc ws wn b ⟨(i 0).val, idx2_lt0 i⟩ ⟨(i 1).val, idx2_lt1 i⟩) (Ideal.ofBits .f32 0x00000000#32)

/-- The last layer as an array: the affine part alone, 47 output features. -/
def output (h s : Mat 50000 128) (mc : Arr 50000) (ws wn : Mat 128 47) (b : Arr 47) : Mat 50000 47 :=
  fun i => affineAt h s mc ws wn b ⟨(i 0).val, idx2_lt0 i⟩ ⟨(i 1).val, idx2_lt1 i⟩

/-- A hidden layer in the multiplied form. -/
def hiddenScaled (h s : Mat 50000 128) (inv : Mat 50000 1) (ws wn : Mat 128 128) (brow : Mat 1 128) : Mat 50000 128 :=
  fun i => max (scaledAt h s inv ws wn brow ⟨(i 0).val, idx2_lt0 i⟩ ⟨(i 1).val, idx2_lt1 i⟩) (Ideal.ofBits .f32 0x00000000#32)

/-- The last layer in the multiplied form. -/
def outputScaled (h s : Mat 50000 128) (inv : Mat 50000 1) (ws wn : Mat 128 47) (brow : Mat 1 47) : Mat 50000 47 :=
  fun i => scaledAt h s inv ws wn brow ⟨(i 0).val, idx2_lt0 i⟩ ⟨(i 1).val, idx2_lt1 i⟩

theorem hiddenScaled_eq (h s : Mat 50000 128) (inv : Mat 50000 1) (mc : Arr 50000) (ws wn : Mat 128 128)
    (brow : Mat 1 128) (b : Arr 128)
    (hinv : ∀ y : Fin 50000, inv (ix2 y (0 : Fin 1)) = Ideal.div (Ideal.ofBits .f32 0x3F800000#32) (mc (ix1 y)))
    (hb : ∀ j : Fin 128, brow (ix2 (0 : Fin 1) j) = b (ix1 j)) (hmc : ∀ y : Fin 50000, mc (ix1 y) ≠ 0) :
    hiddenScaled h s inv ws wn brow = hidden h s mc ws wn b :=
  funext fun i => by
    unfold hiddenScaled hidden
    rw [scaledAt_eq_affineAt h s inv mc ws wn brow b hinv hb hmc]

theorem outputScaled_eq (h s : Mat 50000 128) (inv : Mat 50000 1) (mc : Arr 50000) (ws wn : Mat 128 47)
    (brow : Mat 1 47) (b : Arr 47)
    (hinv : ∀ y : Fin 50000, inv (ix2 y (0 : Fin 1)) = Ideal.div (Ideal.ofBits .f32 0x3F800000#32) (mc (ix1 y)))
    (hb : ∀ j : Fin 47, brow (ix2 (0 : Fin 1) j) = b (ix1 j)) (hmc : ∀ y : Fin 50000, mc (ix1 y) ≠ 0) :
    outputScaled h s inv ws wn brow = output h s mc ws wn b :=
  funext fun i => by
    unfold outputScaled output
    rw [scaledAt_eq_affineAt h s inv mc ws wn brow b hinv hb hmc]

end Cert.Sage

end
-- ==== Proof.Region0.lean ====
/-
  Layer 0's pallas_call as one function of the arrays it is entered with.

  The call runs ten grid steps; step t reads rows 5000 t … 5000 t + 4999 of the features, of the neighbour sums and of
  the reciprocal-count column, the whole weight matrices and the bias row, and writes rows 5000 t … 5000 t + 4999 of
  the result. Each step's block is therefore the restriction of ONE function of the whole arrays, the ten blocks
  tile the result, and the result array ends holding that function.
-/
import proofs.«107789_j5557687681533_2_alg».proof.Proof.Gen.KernelIdeal.Frame
import proofs.«107789_j5557687681533_2_alg».proof.Proof.Pay
import proofs.«107789_j5557687681533_2_alg».proof.Proof.LayerSpec
import Idealize.ShloMosaic.Lib.Pipeline.Value

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero_offsets0 : (![0, 0] : Fin 2 → Nat) = fun _ => 0 := funext fun a => by fin_cases a <;> rfl

/-- The printed index maps over the grid: the row-blocked windows sit at block row t, the whole-array windows at 0. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- One entry of a step's payload is the layer's entry at the array index the entry is written to, when the step's
    loaded blocks are the arrays' rows and columns that index names. -/
theorem point0 (x0 x1 : Vec Ideal S5000x128 .f32) (x2 : Vec Ideal S5000x1 .f32) (x3 x4 : Vec Ideal S128x128 .f32)
    (x5 : Vec Ideal S1x128 .f32)
    (h s : Cert.Sage.Mat 50000 128) (inv : Cert.Sage.Mat 50000 1) (ws wn : Cert.Sage.Mat 128 128) (brow : Cert.Sage.Mat 1 128)
    (r : Fin 5000) (j : Fin 128) (i : (⟨2, ![50000, 128]⟩ : Shape).Idx)
    (h0 : ∀ k : Fin 128, x0 (ix2 r k) = h (ix2 ⟨(i 0).val, idx2_lt0 i⟩ k))
    (h1 : ∀ k : Fin 128, x1 (ix2 r k) = s (ix2 ⟨(i 0).val, idx2_lt0 i⟩ k))
    (h2 : x2 (ix2 r (0 : Fin 1)) = inv (ix2 ⟨(i 0).val, idx2_lt0 i⟩ (0 : Fin 1)))
    (h3 : ∀ k : Fin 128, x3 (ix2 k j) = ws (ix2 k ⟨(i 1).val, idx2_lt1 i⟩))
    (h4 : ∀ k : Fin 128, x4 (ix2 k j) = wn (ix2 k ⟨(i 1).val, idx2_lt1 i⟩))
    (h5 : x5 (ix2 (0 : Fin 1) j) = brow (ix2 (0 : Fin 1) ⟨(i 1).val, idx2_lt1 i⟩)) :
    k0_pay1 x0 x1 x2 x3 x4 x5 (ix2 r j) = Cert.Sage.hiddenScaled h s inv ws wn brow i := by
  rw [pay0_apply]
  unfold Cert.Sage.hiddenScaled Cert.Sage.scaledAt
  simp only [h0, h1, h2, h3, h4, h5]

/-! ## Each window's block at a step, read off its array -/

theorem blk0_0 (c : Dev nD) (t : Fin cfg0.N) (r : Fin 5000) (k : Fin 128) (i : S50000x128.Idx)
    (hi0 : (i 0).val = 5000 * t.val + r.val) (hi1 : (i 1).val = k.val) :
    (iblk0 V c 0 t : Vec Ideal S5000x128 .f32) (ix2 r k) = (V c main_arg0 : S50000x128.Idx → EReal) i := by
  obtain ⟨e0, e1, -⟩ := idx0 t
  show (V c main_arg0 : S50000x128.Idx → EReal) (((cfg0.win 0).blk t).view.emb (ix2 r k)) = _
  refine congrArg (V c main_arg0 : S50000x128.Idx → EReal) (funext fun a => Fin.ext ?_)
  match a with
  | ⟨0, _⟩ => show win0_0.index t (0 : Fin 2) * 5000 + 1 * r.val = (i 0).val; rw [e0, hi0]; omega
  | ⟨1, _⟩ => show win0_0.index t (1 : Fin 2) * 128 + 1 * k.val = (i 1).val; rw [e1, hi1]; omega

theorem blk0_1 (c : Dev nD) (t : Fin cfg0.N) (r : Fin 5000) (k : Fin 128) (i : S50000x128.Idx)
    (hi0 : (i 0).val = 5000 * t.val + r.val) (hi1 : (i 1).val = k.val) :
    (iblk0 V c 1 t : Vec Ideal S5000x128 .f32) (ix2 r k) = (V c main_v18 : S50000x128.Idx → EReal) i := by
  obtain ⟨-, -, e0, e1, -⟩ := idx0 t
  show (V c main_v18 : S50000x128.Idx → EReal) (((cfg0.win 1).blk t).view.emb (ix2 r k)) = _
  refine congrArg (V c main_v18 : S50000x128.Idx → EReal) (funext fun a => Fin.ext ?_)
  match a with
  | ⟨0, _⟩ => show win0_1.index t (0 : Fin 2) * 5000 + 1 * r.val = (i 0).val; rw [e0, hi0]; omega
  | ⟨1, _⟩ => show win0_1.index t (1 : Fin 2) * 128 + 1 * k.val = (i 1).val; rw [e1, hi1]; omega

theorem blk0_2 (c : Dev nD) (t : Fin cfg0.N) (r : Fin 5000) (i : S50000x1.Idx)
    (hi0 : (i 0).val = 5000 * t.val + r.val) :
    (iblk0 V c 2 t : Vec Ideal S5000x1 .f32) (ix2 r (0 : Fin 1)) = (V c main_v8 : S50000x1.Idx → EReal) i := by
  obtain ⟨-, -, -, -, e0, e1, -⟩ := idx0 t
  show (V c main_v8 : S50000x1.Idx → EReal) (((cfg0.win 2).blk t).view.emb (ix2 r (0 : Fin 1))) = _
  refine congrArg (V c main_v8 : S50000x1.Idx → EReal) (funext fun a => Fin.ext ?_)
  match a with
  | ⟨0, _⟩ => show win0_2.index t (0 : Fin 2) * 5000 + 1 * r.val = (i 0).val; rw [e0, hi0]; omega
  | ⟨1, _⟩ => show win0_2.index t (1 : Fin 2) * 1 + 1 * 0 = (i 1).val; rw [e1]; have h1 : (i 1).val < 1 := (i 1).isLt; omega

theorem blk0_3 (c : Dev nD) (t : Fin cfg0.N) (k : Fin 128) (j : Fin 128) :
    (iblk0 V c 3 t : Vec Ideal S128x128 .f32) (ix2 k j) = (V c main_arg3 : S128x128.Idx → EReal) (ix2 k j) := by
  obtain ⟨-, -, -, -, -, -, e0, e1, -⟩ := idx0 t
  show (V c main_arg3 : S128x128.Idx → EReal) (((cfg0.win 3).blk t).view.emb (ix2 k j)) = _
  refine congrArg (V c main_arg3 : S128x128.Idx → EReal) (funext fun a => Fin.ext ?_)
  match a with
  | ⟨0, _⟩ => show win0_3.index t (0 : Fin 2) * 128 + 1 * k.val = k.val; rw [e0]; omega
  | ⟨1, _⟩ => show win0_3.index t (1 : Fin 2) * 128 + 1 * j.val = j.val; rw [e1]; omega

theorem blk0_4 (c : Dev nD) (t : Fin cfg0.N) (k : Fin 128) (j : Fin 128) :
    (iblk0 V c 4 t : Vec Ideal S128x128 .f32) (ix2 k j) = (V c main_arg4 : S128x128.Idx → EReal) (ix2 k j) := by
  obtain ⟨-, -, -, -, -, -, -, -, e0, e1, -⟩ := idx0 t
  show (V c main_arg4 : S128x128.Idx → EReal) (((cfg0.win 4).blk t).view.emb (ix2 k j)) = _
  refine congrArg (V c main_arg4 : S128x128.Idx → EReal) (funext fun a => Fin.ext ?_)
  match a with
  | ⟨0, _⟩ => show win0_4.index t (0 : Fin 2) * 128 + 1 * k.val = k.val; rw [e0]; omega
  | ⟨1, _⟩ => show win0_4.index t (1 : Fin 2) * 128 + 1 * j.val = j.val; rw [e1]; omega

theorem blk0_5 (c : Dev nD) (t : Fin cfg0.N) (j : Fin 128) :
    (iblk0 V c 5 t : Vec Ideal S1x128 .f32) (ix2 (0 : Fin 1) j) = (V c main_v19 : S1x128.Idx → EReal) (ix2 (0 : Fin 1) j) := by
  obtain ⟨-, -, -, -, -, -, -, -, -, -, e0, e1, -⟩ := idx0 t
  show (V c main_v19 : S1x128.Idx → EReal) (((cfg0.win 5).blk t).view.emb (ix2 (0 : Fin 1) j)) = _
  refine congrArg (V c main_v19 : S1x128.Idx → EReal) (funext fun a => Fin.ext ?_)
  match a with
  | ⟨0, _⟩ => show win0_5.index t (0 : Fin 2) * 1 + 1 * 0 = 0; rw [e0]
  | ⟨1, _⟩ => show win0_5.index t (1 : Fin 2) * 128 + 1 * j.val = j.val; rw [e1]; omega

/-! ## The result array -/

/-- The layer as one function of the arrays the call is entered with. -/
def layer0 (c : Dev nD) : Buf (Elt Ideal) ((c : Thread nD τ).loc main_v20) :=
  Cert.Sage.hiddenScaled (V c main_arg0) (V c main_v18) (V c main_v8) (V c main_arg3) (V c main_arg4) (V c main_v19)

/-- What step t writes back is block t of that function. -/
theorem flushed0_eq (c : Dev nD) (t : Fin cfg0.N) :
    (dat0 V c).flushed 6 t = ((cfg0.win 6).blk t).view.read (Elt Ideal) (layer0 V c) := by
  show (cfg0.win 6).cut (grid0.coords t) ((dat0 V c).after 6 t) = _
  rw [after0_6]
  unfold out0_6
  rw [View.canon_unit_zero zero_offsets0]
  simp only [View.ld_unit_zero (S := S5000x128) zero_offsets0, View.ld_unit_zero (S := S5000x1) zero_offsets0,
    View.ld_unit_zero (S := S128x128) zero_offsets0, View.ld_unit_zero (S := S1x128) zero_offsets0]
  have hN : t.val < 10 := by have h := t.isLt; have e : cfg0.N = 10 := N_0; omega
  obtain ⟨-, -, -, -, -, -, -, -, -, -, -, -, e0, e1⟩ := idx0 t
  funext y
  show (k0_pay1 (iblk0 V c 0 t) (iblk0 V c 1 t) (iblk0 V c 2 t) (iblk0 V c 3 t) (iblk0 V c 4 t) (iblk0 V c 5 t) : S5000x128.Idx → EReal) y
    = layer0 V c (((cfg0.win 6).blk t).view.emb y)
  revert y
  show ∀ y : S5000x128.Idx, _
  intro y
  obtain ⟨r, j, rfl⟩ : ∃ (r : Fin 5000) (j : Fin 128), y = ix2 r j := ⟨y 0, y 1, eq_ix2 y⟩
  have hr : r.val < 5000 := r.isLt
  have hj : j.val < 128 := j.isLt
  have p0 : ((((cfg0.win 6).blk t).view.emb (ix2 r j) : S50000x128.Idx) 0).val = 5000 * t.val + r.val := by
    show win0_6.index t (0 : Fin 2) * 5000 + 1 * r.val = _; rw [e0]; omega
  have p1 : ((((cfg0.win 6).blk t).view.emb (ix2 r j) : S50000x128.Idx) 1).val = j.val := by
    show win0_6.index t (1 : Fin 2) * 128 + 1 * j.val = _; rw [e1]; omega
  unfold layer0
  refine point0 _ _ _ _ _ _ _ _ _ _ _ _ r j _ (fun k => ?_) (fun k => ?_) ?_ (fun k => ?_) (fun k => ?_) ?_
  · exact blk0_0 V c t r k _ p0 rfl
  · exact blk0_1 V c t r k _ p0 rfl
  · exact blk0_2 V c t r _ p0
  · rw [blk0_3 V c t k j]; exact congrArg _ (funext fun a => Fin.ext (by match a with | ⟨0, _⟩ => rfl | ⟨1, _⟩ => exact p1.symm))
  · rw [blk0_4 V c t k j]; exact congrArg _ (funext fun a => Fin.ext (by match a with | ⟨0, _⟩ => rfl | ⟨1, _⟩ => exact p1.symm))
  · rw [blk0_5 V c t j]; exact congrArg _ (funext fun a => Fin.ext (by match a with | ⟨0, _⟩ => rfl | ⟨1, _⟩ => exact p1.symm))

/-- An index of the result array is in step t's block iff its row is one of the step's 5000 rows. -/
theorem mem_blk0 (t : Fin cfg0.N) (i : S50000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v20).slice (win0_6.rect t)).set ↔ _
  rw [View.set_slice_whole, Rect.mem_set_unit]
  exact Iff.rfl

/-- The ten blocks tile the result: row y lies in the block of step y / 5000. -/
theorem cover0 (i : S50000x128.Idx) :
    ∃ t : Fin cfg0.N, (cfg0.win 6).flush t = true ∧ i ∈ ((cfg0.win 6).blk t).view.set := by
  have hi0 : (i 0).val < 50000 := (i 0).isLt
  have hi1 : (i 1).val < 128 := (i 1).isLt
  have hN : cfg0.N = 10 := N_0
  let t : Fin cfg0.N := ⟨(i 0).val / 5000, by rw [hN]; omega⟩
  refine ⟨t, flush0_6 t, ?_⟩
  rw [mem_blk0]
  obtain ⟨-, -, -, -, -, -, -, -, -, -, -, -, e0, e1⟩ := idx0 t
  have ht : t.val = (i 0).val / 5000 := rfl
  intro a
  match a with
  | ⟨0, _⟩ => show win0_6.index t (0 : Fin 2) * 5000 ≤ (i 0).val ∧ (i 0).val < win0_6.index t (0 : Fin 2) * 5000 + 5000; rw [e0, ht]; omega
  | ⟨1, _⟩ => show win0_6.index t (1 : Fin 2) * 128 ≤ (i 1).val ∧ (i 1).val < win0_6.index t (1 : Fin 2) * 128 + 128; rw [e1]; omega

/-- The result array after the call is the layer of the arrays it was entered with. -/
theorem final0 (c : Dev nD) : (dat0 V c).arrAt 6 cfg0.N = layer0 V c :=
  (dat0 V c).arrAt_eq_of_cover 6 (layer0 V c) (fun t _ => flushed0_eq V c t) (cover0)

end Cert.KernelIdeal.Hand

end
-- ==== Proof.Region1.lean ====
/-
  Layer 1's pallas_call as one function of the arrays it is entered with.

  The call runs ten grid steps; step t reads rows 5000 t … 5000 t + 4999 of the features, of the neighbour sums and of
  the reciprocal-count column, the whole weight matrices and the bias row, and writes rows 5000 t … 5000 t + 4999 of
  the result. Each step's block is therefore the restriction of ONE function of the whole arrays, the ten blocks
  tile the result, and the result array ends holding that function.
-/
import proofs.«107789_j5557687681533_2_alg».proof.Proof.Gen.KernelIdeal.Frame
import proofs.«107789_j5557687681533_2_alg».proof.Proof.Pay
import proofs.«107789_j5557687681533_2_alg».proof.Proof.LayerSpec
import Idealize.ShloMosaic.Lib.Pipeline.Value

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero_offsets1 : (![0, 0] : Fin 2 → Nat) = fun _ => 0 := funext fun a => by fin_cases a <;> rfl

/-- The printed index maps over the grid: the row-blocked windows sit at block row t, the whole-array windows at 0. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- One entry of a step's payload is the layer's entry at the array index the entry is written to, when the step's
    loaded blocks are the arrays' rows and columns that index names. -/
theorem point1 (x0 x1 : Vec Ideal S5000x128 .f32) (x2 : Vec Ideal S5000x1 .f32) (x3 x4 : Vec Ideal S128x128 .f32)
    (x5 : Vec Ideal S1x128 .f32)
    (h s : Cert.Sage.Mat 50000 128) (inv : Cert.Sage.Mat 50000 1) (ws wn : Cert.Sage.Mat 128 128) (brow : Cert.Sage.Mat 1 128)
    (r : Fin 5000) (j : Fin 128) (i : (⟨2, ![50000, 128]⟩ : Shape).Idx)
    (h0 : ∀ k : Fin 128, x0 (ix2 r k) = h (ix2 ⟨(i 0).val, idx2_lt0 i⟩ k))
    (h1 : ∀ k : Fin 128, x1 (ix2 r k) = s (ix2 ⟨(i 0).val, idx2_lt0 i⟩ k))
    (h2 : x2 (ix2 r (0 : Fin 1)) = inv (ix2 ⟨(i 0).val, idx2_lt0 i⟩ (0 : Fin 1)))
    (h3 : ∀ k : Fin 128, x3 (ix2 k j) = ws (ix2 k ⟨(i 1).val, idx2_lt1 i⟩))
    (h4 : ∀ k : Fin 128, x4 (ix2 k j) = wn (ix2 k ⟨(i 1).val, idx2_lt1 i⟩))
    (h5 : x5 (ix2 (0 : Fin 1) j) = brow (ix2 (0 : Fin 1) ⟨(i 1).val, idx2_lt1 i⟩)) :
    k1_pay1 x0 x1 x2 x3 x4 x5 (ix2 r j) = Cert.Sage.hiddenScaled h s inv ws wn brow i := by
  rw [pay1_apply]
  unfold Cert.Sage.hiddenScaled Cert.Sage.scaledAt
  simp only [h0, h1, h2, h3, h4, h5]

/-! ## Each window's block at a step, read off its array -/

theorem blk1_0 (c : Dev nD) (t : Fin cfg1.N) (r : Fin 5000) (k : Fin 128) (i : S50000x128.Idx)
    (hi0 : (i 0).val = 5000 * t.val + r.val) (hi1 : (i 1).val = k.val) :
    (iblk1 V c 0 t : Vec Ideal S5000x128 .f32) (ix2 r k) = (V c main_v20 : S50000x128.Idx → EReal) i := by
  obtain ⟨e0, e1, -⟩ := idx1 t
  show (V c main_v20 : S50000x128.Idx → EReal) (((cfg1.win 0).blk t).view.emb (ix2 r k)) = _
  refine congrArg (V c main_v20 : S50000x128.Idx → EReal) (funext fun a => Fin.ext ?_)
  match a with
  | ⟨0, _⟩ => show win1_0.index t (0 : Fin 2) * 5000 + 1 * r.val = (i 0).val; rw [e0, hi0]; omega
  | ⟨1, _⟩ => show win1_0.index t (1 : Fin 2) * 128 + 1 * k.val = (i 1).val; rw [e1, hi1]; omega

theorem blk1_1 (c : Dev nD) (t : Fin cfg1.N) (r : Fin 5000) (k : Fin 128) (i : S50000x128.Idx)
    (hi0 : (i 0).val = 5000 * t.val + r.val) (hi1 : (i 1).val = k.val) :
    (iblk1 V c 1 t : Vec Ideal S5000x128 .f32) (ix2 r k) = (V c main_v30 : S50000x128.Idx → EReal) i := by
  obtain ⟨-, -, e0, e1, -⟩ := idx1 t
  show (V c main_v30 : S50000x128.Idx → EReal) (((cfg1.win 1).blk t).view.emb (ix2 r k)) = _
  refine congrArg (V c main_v30 : S50000x128.Idx → EReal) (funext fun a => Fin.ext ?_)
  match a with
  | ⟨0, _⟩ => show win1_1.index t (0 : Fin 2) * 5000 + 1 * r.val = (i 0).val; rw [e0, hi0]; omega
  | ⟨1, _⟩ => show win1_1.index t (1 : Fin 2) * 128 + 1 * k.val = (i 1).val; rw [e1, hi1]; omega

theorem blk1_2 (c : Dev nD) (t : Fin cfg1.N) (r : Fin 5000) (i : S50000x1.Idx)
    (hi0 : (i 0).val = 5000 * t.val + r.val) :
    (iblk1 V c 2 t : Vec Ideal S5000x1 .f32) (ix2 r (0 : Fin 1)) = (V c main_v8 : S50000x1.Idx → EReal) i := by
  obtain ⟨-, -, -, -, e0, e1, -⟩ := idx1 t
  show (V c main_v8 : S50000x1.Idx → EReal) (((cfg1.win 2).blk t).view.emb (ix2 r (0 : Fin 1))) = _
  refine congrArg (V c main_v8 : S50000x1.Idx → EReal) (funext fun a => Fin.ext ?_)
  match a with
  | ⟨0, _⟩ => show win1_2.index t (0 : Fin 2) * 5000 + 1 * r.val = (i 0).val; rw [e0, hi0]; omega
  | ⟨1, _⟩ => show win1_2.index t (1 : Fin 2) * 1 + 1 * 0 = (i 1).val; rw [e1]; have h1 : (i 1).val < 1 := (i 1).isLt; omega

theorem blk1_3 (c : Dev nD) (t : Fin cfg1.N) (k : Fin 128) (j : Fin 128) :
    (iblk1 V c 3 t : Vec Ideal S128x128 .f32) (ix2 k j) = (V c main_arg6 : S128x128.Idx → EReal) (ix2 k j) := by
  obtain ⟨-, -, -, -, -, -, e0, e1, -⟩ := idx1 t
  show (V c main_arg6 : S128x128.Idx → EReal) (((cfg1.win 3).blk t).view.emb (ix2 k j)) = _
  refine congrArg (V c main_arg6 : S128x128.Idx → EReal) (funext fun a => Fin.ext ?_)
  match a with
  | ⟨0, _⟩ => show win1_3.index t (0 : Fin 2) * 128 + 1 * k.val = k.val; rw [e0]; omega
  | ⟨1, _⟩ => show win1_3.index t (1 : Fin 2) * 128 + 1 * j.val = j.val; rw [e1]; omega

theorem blk1_4 (c : Dev nD) (t : Fin cfg1.N) (k : Fin 128) (j : Fin 128) :
    (iblk1 V c 4 t : Vec Ideal S128x128 .f32) (ix2 k j) = (V c main_arg7 : S128x128.Idx → EReal) (ix2 k j) := by
  obtain ⟨-, -, -, -, -, -, -, -, e0, e1, -⟩ := idx1 t
  show (V c main_arg7 : S128x128.Idx → EReal) (((cfg1.win 4).blk t).view.emb (ix2 k j)) = _
  refine congrArg (V c main_arg7 : S128x128.Idx → EReal) (funext fun a => Fin.ext ?_)
  match a with
  | ⟨0, _⟩ => show win1_4.index t (0 : Fin 2) * 128 + 1 * k.val = k.val; rw [e0]; omega
  | ⟨1, _⟩ => show win1_4.index t (1 : Fin 2) * 128 + 1 * j.val = j.val; rw [e1]; omega

theorem blk1_5 (c : Dev nD) (t : Fin cfg1.N) (j : Fin 128) :
    (iblk1 V c 5 t : Vec Ideal S1x128 .f32) (ix2 (0 : Fin 1) j) = (V c main_v31 : S1x128.Idx → EReal) (ix2 (0 : Fin 1) j) := by
  obtain ⟨-, -, -, -, -, -, -, -, -, -, e0, e1, -⟩ := idx1 t
  show (V c main_v31 : S1x128.Idx → EReal) (((cfg1.win 5).blk t).view.emb (ix2 (0 : Fin 1) j)) = _
  refine congrArg (V c main_v31 : S1x128.Idx → EReal) (funext fun a => Fin.ext ?_)
  match a with
  | ⟨0, _⟩ => show win1_5.index t (0 : Fin 2) * 1 + 1 * 0 = 0; rw [e0]
  | ⟨1, _⟩ => show win1_5.index t (1 : Fin 2) * 128 + 1 * j.val = j.val; rw [e1]; omega

/-! ## The result array -/

/-- The layer as one function of the arrays the call is entered with. -/
def layer1 (c : Dev nD) : Buf (Elt Ideal) ((c : Thread nD τ).loc main_v32) :=
  Cert.Sage.hiddenScaled (V c main_v20) (V c main_v30) (V c main_v8) (V c main_arg6) (V c main_arg7) (V c main_v31)

/-- What step t writes back is block t of that function. -/
theorem flushed1_eq (c : Dev nD) (t : Fin cfg1.N) :
    (dat1 V c).flushed 6 t = ((cfg1.win 6).blk t).view.read (Elt Ideal) (layer1 V c) := by
  show (cfg1.win 6).cut (grid1.coords t) ((dat1 V c).after 6 t) = _
  rw [after1_6]
  unfold out1_6
  rw [View.canon_unit_zero zero_offsets1]
  simp only [View.ld_unit_zero (S := S5000x128) zero_offsets1, View.ld_unit_zero (S := S5000x1) zero_offsets1,
    View.ld_unit_zero (S := S128x128) zero_offsets1, View.ld_unit_zero (S := S1x128) zero_offsets1]
  have hN : t.val < 10 := by have h := t.isLt; have e : cfg1.N = 10 := N_1; omega
  obtain ⟨-, -, -, -, -, -, -, -, -, -, -, -, e0, e1⟩ := idx1 t
  funext y
  show (k1_pay1 (iblk1 V c 0 t) (iblk1 V c 1 t) (iblk1 V c 2 t) (iblk1 V c 3 t) (iblk1 V c 4 t) (iblk1 V c 5 t) : S5000x128.Idx → EReal) y
    = layer1 V c (((cfg1.win 6).blk t).view.emb y)
  revert y
  show ∀ y : S5000x128.Idx, _
  intro y
  obtain ⟨r, j, rfl⟩ : ∃ (r : Fin 5000) (j : Fin 128), y = ix2 r j := ⟨y 0, y 1, eq_ix2 y⟩
  have hr : r.val < 5000 := r.isLt
  have hj : j.val < 128 := j.isLt
  have p0 : ((((cfg1.win 6).blk t).view.emb (ix2 r j) : S50000x128.Idx) 0).val = 5000 * t.val + r.val := by
    show win1_6.index t (0 : Fin 2) * 5000 + 1 * r.val = _; rw [e0]; omega
  have p1 : ((((cfg1.win 6).blk t).view.emb (ix2 r j) : S50000x128.Idx) 1).val = j.val := by
    show win1_6.index t (1 : Fin 2) * 128 + 1 * j.val = _; rw [e1]; omega
  unfold layer1
  refine point1 _ _ _ _ _ _ _ _ _ _ _ _ r j _ (fun k => ?_) (fun k => ?_) ?_ (fun k => ?_) (fun k => ?_) ?_
  · exact blk1_0 V c t r k _ p0 rfl
  · exact blk1_1 V c t r k _ p0 rfl
  · exact blk1_2 V c t r _ p0
  · rw [blk1_3 V c t k j]; exact congrArg _ (funext fun a => Fin.ext (by match a with | ⟨0, _⟩ => rfl | ⟨1, _⟩ => exact p1.symm))
  · rw [blk1_4 V c t k j]; exact congrArg _ (funext fun a => Fin.ext (by match a with | ⟨0, _⟩ => rfl | ⟨1, _⟩ => exact p1.symm))
  · rw [blk1_5 V c t j]; exact congrArg _ (funext fun a => Fin.ext (by match a with | ⟨0, _⟩ => rfl | ⟨1, _⟩ => exact p1.symm))

/-- An index of the result array is in step t's block iff its row is one of the step's 5000 rows. -/
theorem mem_blk1 (t : Fin cfg1.N) (i : S50000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v32).slice (win1_6.rect t)).set ↔ _
  rw [View.set_slice_whole, Rect.mem_set_unit]
  exact Iff.rfl

/-- The ten blocks tile the result: row y lies in the block of step y / 5000. -/
theorem cover1 (i : S50000x128.Idx) :
    ∃ t : Fin cfg1.N, (cfg1.win 6).flush t = true ∧ i ∈ ((cfg1.win 6).blk t).view.set := by
  have hi0 : (i 0).val < 50000 := (i 0).isLt
  have hi1 : (i 1).val < 128 := (i 1).isLt
  have hN : cfg1.N = 10 := N_1
  let t : Fin cfg1.N := ⟨(i 0).val / 5000, by rw [hN]; omega⟩
  refine ⟨t, flush1_6 t, ?_⟩
  rw [mem_blk1]
  obtain ⟨-, -, -, -, -, -, -, -, -, -, -, -, e0, e1⟩ := idx1 t
  have ht : t.val = (i 0).val / 5000 := rfl
  intro a
  match a with
  | ⟨0, _⟩ => show win1_6.index t (0 : Fin 2) * 5000 ≤ (i 0).val ∧ (i 0).val < win1_6.index t (0 : Fin 2) * 5000 + 5000; rw [e0, ht]; omega
  | ⟨1, _⟩ => show win1_6.index t (1 : Fin 2) * 128 ≤ (i 1).val ∧ (i 1).val < win1_6.index t (1 : Fin 2) * 128 + 128; rw [e1]; omega

/-- The result array after the call is the layer of the arrays it was entered with. -/
theorem final1 (c : Dev nD) : (dat1 V c).arrAt 6 cfg1.N = layer1 V c :=
  (dat1 V c).arrAt_eq_of_cover 6 (layer1 V c) (fun t _ => flushed1_eq V c t) (cover1)

end Cert.KernelIdeal.Hand

end
-- ==== Proof.Region2.lean ====
/-
  Layer 2's pallas_call as one function of the arrays it is entered with.

  The call runs ten grid steps; step t reads rows 5000 t … 5000 t + 4999 of the features, of the neighbour sums and of
  the reciprocal-count column, the whole weight matrices and the bias row, and writes rows 5000 t … 5000 t + 4999 of
  the result. Each step's block is therefore the restriction of ONE function of the whole arrays, the ten blocks
  tile the result, and the result array ends holding that function.
-/
import proofs.«107789_j5557687681533_2_alg».proof.Proof.Gen.KernelIdeal.Frame
import proofs.«107789_j5557687681533_2_alg».proof.Proof.Pay
import proofs.«107789_j5557687681533_2_alg».proof.Proof.LayerSpec
import Idealize.ShloMosaic.Lib.Pipeline.Value

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero_offsets2 : (![0, 0] : Fin 2 → Nat) = fun _ => 0 := funext fun a => by fin_cases a <;> rfl

/-- The printed index maps over the grid: the row-blocked windows sit at block row t, the whole-array windows at 0. -/
theorem idx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- One entry of a step's payload is the layer's entry at the array index the entry is written to, when the step's
    loaded blocks are the arrays' rows and columns that index names. -/
theorem point2 (x0 x1 : Vec Ideal S5000x128 .f32) (x2 : Vec Ideal S5000x1 .f32) (x3 x4 : Vec Ideal S128x47 .f32)
    (x5 : Vec Ideal S1x47 .f32)
    (h s : Cert.Sage.Mat 50000 128) (inv : Cert.Sage.Mat 50000 1) (ws wn : Cert.Sage.Mat 128 47) (brow : Cert.Sage.Mat 1 47)
    (r : Fin 5000) (j : Fin 47) (i : (⟨2, ![50000, 47]⟩ : Shape).Idx)
    (h0 : ∀ k : Fin 128, x0 (ix2 r k) = h (ix2 ⟨(i 0).val, idx2_lt0 i⟩ k))
    (h1 : ∀ k : Fin 128, x1 (ix2 r k) = s (ix2 ⟨(i 0).val, idx2_lt0 i⟩ k))
    (h2 : x2 (ix2 r (0 : Fin 1)) = inv (ix2 ⟨(i 0).val, idx2_lt0 i⟩ (0 : Fin 1)))
    (h3 : ∀ k : Fin 128, x3 (ix2 k j) = ws (ix2 k ⟨(i 1).val, idx2_lt1 i⟩))
    (h4 : ∀ k : Fin 128, x4 (ix2 k j) = wn (ix2 k ⟨(i 1).val, idx2_lt1 i⟩))
    (h5 : x5 (ix2 (0 : Fin 1) j) = brow (ix2 (0 : Fin 1) ⟨(i 1).val, idx2_lt1 i⟩)) :
    k2_pay1 x0 x1 x2 x3 x4 x5 (ix2 r j) = Cert.Sage.outputScaled h s inv ws wn brow i := by
  rw [pay2_apply]
  unfold Cert.Sage.outputScaled Cert.Sage.scaledAt
  simp only [h0, h1, h2, h3, h4, h5]

/-! ## Each window's block at a step, read off its array -/

theorem blk2_0 (c : Dev nD) (t : Fin cfg2.N) (r : Fin 5000) (k : Fin 128) (i : S50000x128.Idx)
    (hi0 : (i 0).val = 5000 * t.val + r.val) (hi1 : (i 1).val = k.val) :
    (iblk2 V c 0 t : Vec Ideal S5000x128 .f32) (ix2 r k) = (V c main_v32 : S50000x128.Idx → EReal) i := by
  obtain ⟨e0, e1, -⟩ := idx2 t
  show (V c main_v32 : S50000x128.Idx → EReal) (((cfg2.win 0).blk t).view.emb (ix2 r k)) = _
  refine congrArg (V c main_v32 : S50000x128.Idx → EReal) (funext fun a => Fin.ext ?_)
  match a with
  | ⟨0, _⟩ => show win2_0.index t (0 : Fin 2) * 5000 + 1 * r.val = (i 0).val; rw [e0, hi0]; omega
  | ⟨1, _⟩ => show win2_0.index t (1 : Fin 2) * 128 + 1 * k.val = (i 1).val; rw [e1, hi1]; omega

theorem blk2_1 (c : Dev nD) (t : Fin cfg2.N) (r : Fin 5000) (k : Fin 128) (i : S50000x128.Idx)
    (hi0 : (i 0).val = 5000 * t.val + r.val) (hi1 : (i 1).val = k.val) :
    (iblk2 V c 1 t : Vec Ideal S5000x128 .f32) (ix2 r k) = (V c main_v42 : S50000x128.Idx → EReal) i := by
  obtain ⟨-, -, e0, e1, -⟩ := idx2 t
  show (V c main_v42 : S50000x128.Idx → EReal) (((cfg2.win 1).blk t).view.emb (ix2 r k)) = _
  refine congrArg (V c main_v42 : S50000x128.Idx → EReal) (funext fun a => Fin.ext ?_)
  match a with
  | ⟨0, _⟩ => show win2_1.index t (0 : Fin 2) * 5000 + 1 * r.val = (i 0).val; rw [e0, hi0]; omega
  | ⟨1, _⟩ => show win2_1.index t (1 : Fin 2) * 128 + 1 * k.val = (i 1).val; rw [e1, hi1]; omega

theorem blk2_2 (c : Dev nD) (t : Fin cfg2.N) (r : Fin 5000) (i : S50000x1.Idx)
    (hi0 : (i 0).val = 5000 * t.val + r.val) :
    (iblk2 V c 2 t : Vec Ideal S5000x1 .f32) (ix2 r (0 : Fin 1)) = (V c main_v8 : S50000x1.Idx → EReal) i := by
  obtain ⟨-, -, -, -, e0, e1, -⟩ := idx2 t
  show (V c main_v8 : S50000x1.Idx → EReal) (((cfg2.win 2).blk t).view.emb (ix2 r (0 : Fin 1))) = _
  refine congrArg (V c main_v8 : S50000x1.Idx → EReal) (funext fun a => Fin.ext ?_)
  match a with
  | ⟨0, _⟩ => show win2_2.index t (0 : Fin 2) * 5000 + 1 * r.val = (i 0).val; rw [e0, hi0]; omega
  | ⟨1, _⟩ => show win2_2.index t (1 : Fin 2) * 1 + 1 * 0 = (i 1).val; rw [e1]; have h1 : (i 1).val < 1 := (i 1).isLt; omega

theorem blk2_3 (c : Dev nD) (t : Fin cfg2.N) (k : Fin 128) (j : Fin 47) :
    (iblk2 V c 3 t : Vec Ideal S128x47 .f32) (ix2 k j) = (V c main_arg9 : S128x47.Idx → EReal) (ix2 k j) := by
  obtain ⟨-, -, -, -, -, -, e0, e1, -⟩ := idx2 t
  show (V c main_arg9 : S128x47.Idx → EReal) (((cfg2.win 3).blk t).view.emb (ix2 k j)) = _
  refine congrArg (V c main_arg9 : S128x47.Idx → EReal) (funext fun a => Fin.ext ?_)
  match a with
  | ⟨0, _⟩ => show win2_3.index t (0 : Fin 2) * 128 + 1 * k.val = k.val; rw [e0]; omega
  | ⟨1, _⟩ => show win2_3.index t (1 : Fin 2) * 47 + 1 * j.val = j.val; rw [e1]; omega

theorem blk2_4 (c : Dev nD) (t : Fin cfg2.N) (k : Fin 128) (j : Fin 47) :
    (iblk2 V c 4 t : Vec Ideal S128x47 .f32) (ix2 k j) = (V c main_arg10 : S128x47.Idx → EReal) (ix2 k j) := by
  obtain ⟨-, -, -, -, -, -, -, -, e0, e1, -⟩ := idx2 t
  show (V c main_arg10 : S128x47.Idx → EReal) (((cfg2.win 4).blk t).view.emb (ix2 k j)) = _
  refine congrArg (V c main_arg10 : S128x47.Idx → EReal) (funext fun a => Fin.ext ?_)
  match a with
  | ⟨0, _⟩ => show win2_4.index t (0 : Fin 2) * 128 + 1 * k.val = k.val; rw [e0]; omega
  | ⟨1, _⟩ => show win2_4.index t (1 : Fin 2) * 47 + 1 * j.val = j.val; rw [e1]; omega

theorem blk2_5 (c : Dev nD) (t : Fin cfg2.N) (j : Fin 47) :
    (iblk2 V c 5 t : Vec Ideal S1x47 .f32) (ix2 (0 : Fin 1) j) = (V c main_v43 : S1x47.Idx → EReal) (ix2 (0 : Fin 1) j) := by
  obtain ⟨-, -, -, -, -, -, -, -, -, -, e0, e1, -⟩ := idx2 t
  show (V c main_v43 : S1x47.Idx → EReal) (((cfg2.win 5).blk t).view.emb (ix2 (0 : Fin 1) j)) = _
  refine congrArg (V c main_v43 : S1x47.Idx → EReal) (funext fun a => Fin.ext ?_)
  match a with
  | ⟨0, _⟩ => show win2_5.index t (0 : Fin 2) * 1 + 1 * 0 = 0; rw [e0]
  | ⟨1, _⟩ => show win2_5.index t (1 : Fin 2) * 47 + 1 * j.val = j.val; rw [e1]; omega

/-! ## The result array -/

/-- The layer as one function of the arrays the call is entered with. -/
def layer2 (c : Dev nD) : Buf (Elt Ideal) ((c : Thread nD τ).loc main_v44) :=
  Cert.Sage.outputScaled (V c main_v32) (V c main_v42) (V c main_v8) (V c main_arg9) (V c main_arg10) (V c main_v43)

/-- What step t writes back is block t of that function. -/
theorem flushed2_eq (c : Dev nD) (t : Fin cfg2.N) :
    (dat2 V c).flushed 6 t = ((cfg2.win 6).blk t).view.read (Elt Ideal) (layer2 V c) := by
  show (cfg2.win 6).cut (grid2.coords t) ((dat2 V c).after 6 t) = _
  rw [after2_6]
  unfold out2_6
  rw [View.canon_unit_zero zero_offsets2]
  simp only [View.ld_unit_zero (S := S5000x128) zero_offsets2, View.ld_unit_zero (S := S5000x1) zero_offsets2,
    View.ld_unit_zero (S := S128x47) zero_offsets2, View.ld_unit_zero (S := S1x47) zero_offsets2]
  have hN : t.val < 10 := by have h := t.isLt; have e : cfg2.N = 10 := N_2; omega
  obtain ⟨-, -, -, -, -, -, -, -, -, -, -, -, e0, e1⟩ := idx2 t
  funext y
  show (k2_pay1 (iblk2 V c 0 t) (iblk2 V c 1 t) (iblk2 V c 2 t) (iblk2 V c 3 t) (iblk2 V c 4 t) (iblk2 V c 5 t) : S5000x47.Idx → EReal) y
    = layer2 V c (((cfg2.win 6).blk t).view.emb y)
  revert y
  show ∀ y : S5000x47.Idx, _
  intro y
  obtain ⟨r, j, rfl⟩ : ∃ (r : Fin 5000) (j : Fin 47), y = ix2 r j := ⟨y 0, y 1, eq_ix2 y⟩
  have hr : r.val < 5000 := r.isLt
  have hj : j.val < 47 := j.isLt
  have p0 : ((((cfg2.win 6).blk t).view.emb (ix2 r j) : S50000x47.Idx) 0).val = 5000 * t.val + r.val := by
    show win2_6.index t (0 : Fin 2) * 5000 + 1 * r.val = _; rw [e0]; omega
  have p1 : ((((cfg2.win 6).blk t).view.emb (ix2 r j) : S50000x47.Idx) 1).val = j.val := by
    show win2_6.index t (1 : Fin 2) * 47 + 1 * j.val = _; rw [e1]; omega
  unfold layer2
  refine point2 _ _ _ _ _ _ _ _ _ _ _ _ r j _ (fun k => ?_) (fun k => ?_) ?_ (fun k => ?_) (fun k => ?_) ?_
  · exact blk2_0 V c t r k _ p0 rfl
  · exact blk2_1 V c t r k _ p0 rfl
  · exact blk2_2 V c t r _ p0
  · rw [blk2_3 V c t k j]; exact congrArg _ (funext fun a => Fin.ext (by match a with | ⟨0, _⟩ => rfl | ⟨1, _⟩ => exact p1.symm))
  · rw [blk2_4 V c t k j]; exact congrArg _ (funext fun a => Fin.ext (by match a with | ⟨0, _⟩ => rfl | ⟨1, _⟩ => exact p1.symm))
  · rw [blk2_5 V c t j]; exact congrArg _ (funext fun a => Fin.ext (by match a with | ⟨0, _⟩ => rfl | ⟨1, _⟩ => exact p1.symm))

/-- An index of the result array is in step t's block iff its row is one of the step's 5000 rows. -/
theorem mem_blk2 (t : Fin cfg2.N) (i : S50000x47.Idx) :
    i ∈ ((cfg2.win 6).blk t).view.set ↔ ∀ a : Fin 2, win2_6.index t a * S5000x47.size a ≤ (i a).val ∧ (i a).val < win2_6.index t a * S5000x47.size a + S5000x47.size a := by
  show i ∈ ((View.whole main_v44).slice (win2_6.rect t)).set ↔ _
  rw [View.set_slice_whole, Rect.mem_set_unit]
  exact Iff.rfl

/-- The ten blocks tile the result: row y lies in the block of step y / 5000. -/
theorem cover2 (i : S50000x47.Idx) :
    ∃ t : Fin cfg2.N, (cfg2.win 6).flush t = true ∧ i ∈ ((cfg2.win 6).blk t).view.set := by
  have hi0 : (i 0).val < 50000 := (i 0).isLt
  have hi1 : (i 1).val < 47 := (i 1).isLt
  have hN : cfg2.N = 10 := N_2
  let t : Fin cfg2.N := ⟨(i 0).val / 5000, by rw [hN]; omega⟩
  refine ⟨t, flush2_6 t, ?_⟩
  rw [mem_blk2]
  obtain ⟨-, -, -, -, -, -, -, -, -, -, -, -, e0, e1⟩ := idx2 t
  have ht : t.val = (i 0).val / 5000 := rfl
  intro a
  match a with
  | ⟨0, _⟩ => show win2_6.index t (0 : Fin 2) * 5000 ≤ (i 0).val ∧ (i 0).val < win2_6.index t (0 : Fin 2) * 5000 + 5000; rw [e0, ht]; omega
  | ⟨1, _⟩ => show win2_6.index t (1 : Fin 2) * 47 ≤ (i 1).val ∧ (i 1).val < win2_6.index t (1 : Fin 2) * 47 + 47; rw [e1]; omega

/-- The result array after the call is the layer of the arrays it was entered with. -/
theorem final2 (c : Dev nD) : (dat2 V c).arrAt 6 cfg2.N = layer2 V c :=
  (dat2 V c).arrAt_eq_of_cover 6 (layer2 V c) (fun t _ => flushed2_eq V c t) (cover2)

end Cert.KernelIdeal.Hand

end
-- ==== Proof.KHost.lean ====
/-
  The idealized kernel program between its pallas_calls: what the host operations leave in the arrays each call is
  entered with, and the three calls composed.

  Before the first call the host counts the edges ending in each node (ones scatter-added into zeros at the
  destination indices), clamps the count from below by one, takes one over it and recasts the result as a column;
  before every call it gathers the current features at the edges' sources and scatter-adds them at their destinations
  (the neighbour sum) and recasts the layer's bias as a one-row matrix. No host operation and no call writes an
  argument, and a call writes only its result array, so every array a later call reads is still what the earlier
  segment left there.
-/
import proofs.«107789_j5557687681533_2_alg».proof.Proof.KernelRun
import proofs.«107789_j5557687681533_2_alg».proof.Proof.Region0
import proofs.«107789_j5557687681533_2_alg».proof.Proof.Region1
import proofs.«107789_j5557687681533_2_alg».proof.Proof.Region2
import proofs.«107789_j5557687681533_2_alg».proof.Proof.LibColumn
import Idealize.ShloMosaic.Lib.ValueLayout
import Idealize.ShloMosaic.Lib.StableHlo.Run

noncomputable section

namespace Cert.KernelIdeal.Hand

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

/-! ## The host computations, named -/

/-- The neighbour sum: rows of `h` gathered at the edges' sources, scatter-added at their destinations. -/
def aggK (h : (⟨S50000x128, .f32⟩ : BufTy).Contents (Elt Ideal)) (src dst : (⟨S800000, .i32⟩ : BufTy).Contents (Elt Ideal)) :
    (⟨S50000x128, .f32⟩ : BufTy).Contents (Elt Ideal) :=
  Host.scatterAdd (F := Ideal) scatter_S50000x128_S800000x1_S800000x128_1_0_0_1
    (broadcastInDim S50000x128 ![] bcast_S_S50000x128 (constant (F := Ideal) S_ .f32 0x00000000#32))
    (broadcastInDim S800000x1 ![0] bcast_S800000_S800000x1_0 dst)
    (Host.gather gather_S50000x128_S800000x1_S800000x128_1_0_n_n_0_1_1128 h
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32))) src)))

/-- The number of edges ending in each node, clamped from below by one. -/
def clampedK (dst : (⟨S800000, .i32⟩ : BufTy).Contents (Elt Ideal)) : (⟨S50000, .f32⟩ : BufTy).Contents (Elt Ideal) :=
  maximumf (F := Ideal)
    (Host.scatterAdd (F := Ideal) scatter_S50000_S800000x1_S800000_n_0_0_1
      (broadcastInDim S50000 ![] bcast_S_S50000 (constant (F := Ideal) S_ .f32 0x00000000#32))
      (broadcastInDim S800000x1 ![0] bcast_S800000_S800000x1_0 dst)
      (broadcastInDim S800000 ![] bcast_S_S800000 (constant (F := Ideal) S_ .f32 0x3F800000#32)))
    (broadcastInDim S50000 ![] bcast_S_S50000 (constant (F := Ideal) S_ .f32 0x3F800000#32))

/-- One over the clamped count, as a column. -/
def invK (dst : (⟨S800000, .i32⟩ : BufTy).Contents (Elt Ideal)) : (⟨S50000x1, .f32⟩ : BufTy).Contents (Elt Ideal) :=
  fun i => shapeCast S50000x1
    (Host.divf (F := Ideal) (broadcastInDim S50000 ![] bcast_S_S50000 (constant (F := Ideal) S_ .f32 0x3F800000#32)) (clampedK dst))
    shapeCasts_S50000_S50000x1 i

/-- A bias of 128 features as a one-row matrix. -/
def rowH (b : (⟨S128, .f32⟩ : BufTy).Contents (Elt Ideal)) : (⟨S1x128, .f32⟩ : BufTy).Contents (Elt Ideal) :=
  fun i => shapeCast S1x128 b shapeCasts_S128_S1x128 i

/-- A bias of 47 features as a one-row matrix. -/
def rowO (b : (⟨S47, .f32⟩ : BufTy).Contents (Elt Ideal)) : (⟨S1x47, .f32⟩ : BufTy).Contents (Elt Ideal) :=
  fun i => shapeCast S1x47 b shapeCasts_S47_S1x47 i

/-- The host's quotient of two arrays at an index is the quotient of the entries. -/
theorem hostDivf_at {s : Shape} (a b : FVec Ideal s .f32) (i : s.Idx) : Host.divf (F := Ideal) a b i = Ideal.div (a i) (b i) := rfl

/-- The column of reciprocals at row y is one over the clamped count at y. -/
theorem invK_apply (dst : (⟨S800000, .i32⟩ : BufTy).Contents (Elt Ideal)) (y : Fin 50000) :
    invK dst (ix2 y (0 : Fin 1)) = Ideal.div (Ideal.ofBits .f32 0x3F800000#32) (clampedK dst (ix1 y)) := by
  unfold invK
  rw [Cert.LibColumn.shapeCast_a_a1_apply, hostDivf_at,
    broadcastInDim_apply _ bcast_S_S50000 _ (ix1 y) (fun a => a.elim0) (fun a => a.elim0), constant_apply]

/-- A clamped count is never zero. -/
theorem clampedK_ne_zero (dst : (⟨S800000, .i32⟩ : BufTy).Contents (Elt Ideal)) (y : Fin 50000) : clampedK dst (ix1 y) ≠ 0 := by
  unfold clampedK
  rw [maximumf_apply, broadcastInDim_apply _ bcast_S_S50000 _ (ix1 y) (fun a => a.elim0) (fun a => a.elim0), constant_apply]
  exact Cert.Sage.clamp_ne_zero _

theorem rowH_apply (b : (⟨S128, .f32⟩ : BufTy).Contents (Elt Ideal)) (j : Fin 128) : rowH b (ix2 (0 : Fin 1) j) = b (ix1 j) := by
  unfold rowH
  exact shapeCast_a_1a_apply b shapeCasts_S128_S1x128 (0 : Fin 1) j

theorem rowO_apply (b : (⟨S47, .f32⟩ : BufTy).Contents (Elt Ideal)) (j : Fin 47) : rowO b (ix2 (0 : Fin 1) j) = b (ix1 j) := by
  unfold rowO
  exact shapeCast_a_1a_apply b shapeCasts_S47_S1x47 (0 : Fin 1) j

/-! ## The arrays at each segment boundary -/

variable (m : (ℓ : Loc nD τ sig) → Buf (Elt Ideal) ℓ) (ρ : Dev nD → PrngReg)

/-! ### Entering the first call -/

theorem V1_arg0 (c : Dev nD) : V1 m ρ c main_arg0 = (m ((c : Thread nD τ).loc main_arg0)) := by
  show StableHlo.after hostOps0 (W0 m ρ c) (Proc.devRef .tc main_arg0) = _
  after_results
theorem V1_arg3 (c : Dev nD) : V1 m ρ c main_arg3 = (m ((c : Thread nD τ).loc main_arg3)) := by
  show StableHlo.after hostOps0 (W0 m ρ c) (Proc.devRef .tc main_arg3) = _
  after_results
theorem V1_arg4 (c : Dev nD) : V1 m ρ c main_arg4 = (m ((c : Thread nD τ).loc main_arg4)) := by
  show StableHlo.after hostOps0 (W0 m ρ c) (Proc.devRef .tc main_arg4) = _
  after_results
theorem V1_v18 (c : Dev nD) : V1 m ρ c main_v18 = aggK (m ((c : Thread nD τ).loc main_arg0)) (m ((c : Thread nD τ).loc main_arg1)) (m ((c : Thread nD τ).loc main_arg2)) := by
  show StableHlo.after hostOps0 (W0 m ρ c) (Proc.devRef .tc main_v18) = _
  after_results; rfl
theorem V1_v8 (c : Dev nD) : V1 m ρ c main_v8 = invK (m ((c : Thread nD τ).loc main_arg2)) := by
  show StableHlo.after hostOps0 (W0 m ρ c) (Proc.devRef .tc main_v8) = _
  after_results; rfl
theorem V1_v19 (c : Dev nD) : V1 m ρ c main_v19 = rowH (m ((c : Thread nD τ).loc main_arg5)) := by
  show StableHlo.after hostOps0 (W0 m ρ c) (Proc.devRef .tc main_v19) = _
  after_results; rfl

/-- The features after the first layer. -/
def H1 (c : Dev nD) : (⟨S50000x128, .f32⟩ : BufTy).Contents (Elt Ideal) :=
  Cert.Sage.hidden (m ((c : Thread nD τ).loc main_arg0)) (aggK (m ((c : Thread nD τ).loc main_arg0)) (m ((c : Thread nD τ).loc main_arg1)) (m ((c : Thread nD τ).loc main_arg2))) (clampedK (m ((c : Thread nD τ).loc main_arg2))) (m ((c : Thread nD τ).loc main_arg3)) (m ((c : Thread nD τ).loc main_arg4)) (m ((c : Thread nD τ).loc main_arg5))

/-- The first call leaves the first layer in its result array. -/
theorem W2_v20 (c : Dev nD) : W2 m ρ c (Proc.devRef .tc main_v20) = H1 m c := by
  refine (W2_arr m ρ c 6).trans ((final0 (V1 m ρ) c).trans ?_)
  unfold layer0
  rw [V1_arg0 m ρ c, V1_v18 m ρ c, V1_v8 m ρ c, V1_arg3 m ρ c, V1_arg4 m ρ c, V1_v19 m ρ c]
  exact Cert.Sage.hiddenScaled_eq _ _ _ (clampedK (m ((c : Thread nD τ).loc main_arg2))) _ _ _ (m ((c : Thread nD τ).loc main_arg5)) (invK_apply (m ((c : Thread nD τ).loc main_arg2))) (rowH_apply (m ((c : Thread nD τ).loc main_arg5))) (clampedK_ne_zero (m ((c : Thread nD τ).loc main_arg2)))

/-! ### Between the first and the second call -/

theorem W2_arg1 (c : Dev nD) : W2 m ρ c (Proc.devRef .tc main_arg1) = (m ((c : Thread nD τ).loc main_arg1)) :=
  (W2_of_ne m ρ c main_arg1 (by decide)).trans (by
    show StableHlo.after hostOps0 (W0 m ρ c) (Proc.devRef .tc main_arg1) = _
    after_results)
theorem W2_arg2 (c : Dev nD) : W2 m ρ c (Proc.devRef .tc main_arg2) = (m ((c : Thread nD τ).loc main_arg2)) :=
  (W2_of_ne m ρ c main_arg2 (by decide)).trans (by
    show StableHlo.after hostOps0 (W0 m ρ c) (Proc.devRef .tc main_arg2) = _
    after_results)
theorem W2_arg6 (c : Dev nD) : W2 m ρ c (Proc.devRef .tc main_arg6) = (m ((c : Thread nD τ).loc main_arg6)) :=
  (W2_of_ne m ρ c main_arg6 (by decide)).trans (by
    show StableHlo.after hostOps0 (W0 m ρ c) (Proc.devRef .tc main_arg6) = _
    after_results)
theorem W2_arg7 (c : Dev nD) : W2 m ρ c (Proc.devRef .tc main_arg7) = (m ((c : Thread nD τ).loc main_arg7)) :=
  (W2_of_ne m ρ c main_arg7 (by decide)).trans (by
    show StableHlo.after hostOps0 (W0 m ρ c) (Proc.devRef .tc main_arg7) = _
    after_results)
theorem W2_arg8 (c : Dev nD) : W2 m ρ c (Proc.devRef .tc main_arg8) = (m ((c : Thread nD τ).loc main_arg8)) :=
  (W2_of_ne m ρ c main_arg8 (by decide)).trans (by
    show StableHlo.after hostOps0 (W0 m ρ c) (Proc.devRef .tc main_arg8) = _
    after_results)
theorem W2_arg9 (c : Dev nD) : W2 m ρ c (Proc.devRef .tc main_arg9) = (m ((c : Thread nD τ).loc main_arg9)) :=
  (W2_of_ne m ρ c main_arg9 (by decide)).trans (by
    show StableHlo.after hostOps0 (W0 m ρ c) (Proc.devRef .tc main_arg9) = _
    after_results)
theorem W2_arg10 (c : Dev nD) : W2 m ρ c (Proc.devRef .tc main_arg10) = (m ((c : Thread nD τ).loc main_arg10)) :=
  (W2_of_ne m ρ c main_arg10 (by decide)).trans (by
    show StableHlo.after hostOps0 (W0 m ρ c) (Proc.devRef .tc main_arg10) = _
    after_results)
theorem W2_arg11 (c : Dev nD) : W2 m ρ c (Proc.devRef .tc main_arg11) = (m ((c : Thread nD τ).loc main_arg11)) :=
  (W2_of_ne m ρ c main_arg11 (by decide)).trans (by
    show StableHlo.after hostOps0 (W0 m ρ c) (Proc.devRef .tc main_arg11) = _
    after_results)
theorem W2_v8 (c : Dev nD) : W2 m ρ c (Proc.devRef .tc main_v8) = invK (m ((c : Thread nD τ).loc main_arg2)) :=
  (W2_arr m ρ c 2).trans (((dat0 (V1 m ρ) c).arrAt_in 2 rfl _).trans ((A_eq0 (V1 m ρ) c 2).trans (V1_v8 m ρ c)))

theorem V3_v20 (c : Dev nD) : V3 m ρ c main_v20 = H1 m c := by
  show StableHlo.after hostOps1 (W2 m ρ c) (Proc.devRef .tc main_v20) = _
  after_results; exact W2_v20 m ρ c
theorem V3_v30 (c : Dev nD) : V3 m ρ c main_v30 = aggK (H1 m c) (m ((c : Thread nD τ).loc main_arg1)) (m ((c : Thread nD τ).loc main_arg2)) := by
  show StableHlo.after hostOps1 (W2 m ρ c) (Proc.devRef .tc main_v30) = _
  after_results
  rw [W2_v20 m ρ c, W2_arg1 m ρ c, W2_arg2 m ρ c]; rfl
theorem V3_v8 (c : Dev nD) : V3 m ρ c main_v8 = invK (m ((c : Thread nD τ).loc main_arg2)) := by
  show StableHlo.after hostOps1 (W2 m ρ c) (Proc.devRef .tc main_v8) = _
  after_results; exact W2_v8 m ρ c
theorem V3_arg6 (c : Dev nD) : V3 m ρ c main_arg6 = (m ((c : Thread nD τ).loc main_arg6)) := by
  show StableHlo.after hostOps1 (W2 m ρ c) (Proc.devRef .tc main_arg6) = _
  after_results; exact W2_arg6 m ρ c
theorem V3_arg7 (c : Dev nD) : V3 m ρ c main_arg7 = (m ((c : Thread nD τ).loc main_arg7)) := by
  show StableHlo.after hostOps1 (W2 m ρ c) (Proc.devRef .tc main_arg7) = _
  after_results; exact W2_arg7 m ρ c
theorem V3_v31 (c : Dev nD) : V3 m ρ c main_v31 = rowH (m ((c : Thread nD τ).loc main_arg8)) := by
  show StableHlo.after hostOps1 (W2 m ρ c) (Proc.devRef .tc main_v31) = _
  after_results
  rw [W2_arg8 m ρ c]; rfl

/-- The features after the second layer. -/
def H2 (c : Dev nD) : (⟨S50000x128, .f32⟩ : BufTy).Contents (Elt Ideal) :=
  Cert.Sage.hidden (H1 m c) (aggK (H1 m c) (m ((c : Thread nD τ).loc main_arg1)) (m ((c : Thread nD τ).loc main_arg2))) (clampedK (m ((c : Thread nD τ).loc main_arg2))) (m ((c : Thread nD τ).loc main_arg6)) (m ((c : Thread nD τ).loc main_arg7)) (m ((c : Thread nD τ).loc main_arg8))

/-- The second call leaves the second layer in its result array. -/
theorem W4_v32 (c : Dev nD) : W4 m ρ c (Proc.devRef .tc main_v32) = H2 m c := by
  refine (W4_arr m ρ c 6).trans ((final1 (V3 m ρ) c).trans ?_)
  unfold layer1
  rw [V3_v20 m ρ c, V3_v30 m ρ c, V3_v8 m ρ c, V3_arg6 m ρ c, V3_arg7 m ρ c, V3_v31 m ρ c]
  exact Cert.Sage.hiddenScaled_eq _ _ _ (clampedK (m ((c : Thread nD τ).loc main_arg2))) _ _ _ (m ((c : Thread nD τ).loc main_arg8)) (invK_apply (m ((c : Thread nD τ).loc main_arg2))) (rowH_apply (m ((c : Thread nD τ).loc main_arg8))) (clampedK_ne_zero (m ((c : Thread nD τ).loc main_arg2)))

/-! ### Between the second and the third call -/

theorem W4_arg1 (c : Dev nD) : W4 m ρ c (Proc.devRef .tc main_arg1) = (m ((c : Thread nD τ).loc main_arg1)) :=
  (W4_of_ne m ρ c main_arg1 (by decide)).trans (by
    show StableHlo.after hostOps1 (W2 m ρ c) (Proc.devRef .tc main_arg1) = _
    after_results; exact W2_arg1 m ρ c)
theorem W4_arg2 (c : Dev nD) : W4 m ρ c (Proc.devRef .tc main_arg2) = (m ((c : Thread nD τ).loc main_arg2)) :=
  (W4_of_ne m ρ c main_arg2 (by decide)).trans (by
    show StableHlo.after hostOps1 (W2 m ρ c) (Proc.devRef .tc main_arg2) = _
    after_results; exact W2_arg2 m ρ c)
theorem W4_arg9 (c : Dev nD) : W4 m ρ c (Proc.devRef .tc main_arg9) = (m ((c : Thread nD τ).loc main_arg9)) :=
  (W4_of_ne m ρ c main_arg9 (by decide)).trans (by
    show StableHlo.after hostOps1 (W2 m ρ c) (Proc.devRef .tc main_arg9) = _
    after_results; exact W2_arg9 m ρ c)
theorem W4_arg10 (c : Dev nD) : W4 m ρ c (Proc.devRef .tc main_arg10) = (m ((c : Thread nD τ).loc main_arg10)) :=
  (W4_of_ne m ρ c main_arg10 (by decide)).trans (by
    show StableHlo.after hostOps1 (W2 m ρ c) (Proc.devRef .tc main_arg10) = _
    after_results; exact W2_arg10 m ρ c)
theorem W4_arg11 (c : Dev nD) : W4 m ρ c (Proc.devRef .tc main_arg11) = (m ((c : Thread nD τ).loc main_arg11)) :=
  (W4_of_ne m ρ c main_arg11 (by decide)).trans (by
    show StableHlo.after hostOps1 (W2 m ρ c) (Proc.devRef .tc main_arg11) = _
    after_results; exact W2_arg11 m ρ c)
theorem W4_v8 (c : Dev nD) : W4 m ρ c (Proc.devRef .tc main_v8) = invK (m ((c : Thread nD τ).loc main_arg2)) :=
  (W4_arr m ρ c 2).trans (((dat1 (V3 m ρ) c).arrAt_in 2 rfl _).trans ((A_eq1 (V3 m ρ) c 2).trans (V3_v8 m ρ c)))

theorem V5_v32 (c : Dev nD) : V5 m ρ c main_v32 = H2 m c := by
  show StableHlo.after hostOps2 (W4 m ρ c) (Proc.devRef .tc main_v32) = _
  after_results; exact W4_v32 m ρ c
theorem V5_v42 (c : Dev nD) : V5 m ρ c main_v42 = aggK (H2 m c) (m ((c : Thread nD τ).loc main_arg1)) (m ((c : Thread nD τ).loc main_arg2)) := by
  show StableHlo.after hostOps2 (W4 m ρ c) (Proc.devRef .tc main_v42) = _
  after_results
  rw [W4_v32 m ρ c, W4_arg1 m ρ c, W4_arg2 m ρ c]; rfl
theorem V5_v8 (c : Dev nD) : V5 m ρ c main_v8 = invK (m ((c : Thread nD τ).loc main_arg2)) := by
  show StableHlo.after hostOps2 (W4 m ρ c) (Proc.devRef .tc main_v8) = _
  after_results; exact W4_v8 m ρ c
theorem V5_arg9 (c : Dev nD) : V5 m ρ c main_arg9 = (m ((c : Thread nD τ).loc main_arg9)) := by
  show StableHlo.after hostOps2 (W4 m ρ c) (Proc.devRef .tc main_arg9) = _
  after_results; exact W4_arg9 m ρ c
theorem V5_arg10 (c : Dev nD) : V5 m ρ c main_arg10 = (m ((c : Thread nD τ).loc main_arg10)) := by
  show StableHlo.after hostOps2 (W4 m ρ c) (Proc.devRef .tc main_arg10) = _
  after_results; exact W4_arg10 m ρ c
theorem V5_v43 (c : Dev nD) : V5 m ρ c main_v43 = rowO (m ((c : Thread nD τ).loc main_arg11)) := by
  show StableHlo.after hostOps2 (W4 m ρ c) (Proc.devRef .tc main_v43) = _
  after_results
  rw [W4_arg11 m ρ c]; rfl

/-- The network's output: the third layer of the second layer's features. -/
def result (c : Dev nD) : (⟨S50000x47, .f32⟩ : BufTy).Contents (Elt Ideal) :=
  Cert.Sage.output (H2 m c) (aggK (H2 m c) (m ((c : Thread nD τ).loc main_arg1)) (m ((c : Thread nD τ).loc main_arg2))) (clampedK (m ((c : Thread nD τ).loc main_arg2))) (m ((c : Thread nD τ).loc main_arg9)) (m ((c : Thread nD τ).loc main_arg10)) (m ((c : Thread nD τ).loc main_arg11))

/-- The third call leaves the output in the program's result array. -/
theorem W6_v44 (c : Dev nD) : W6 m ρ c (Proc.devRef .tc main_v44) = result m c := by
  refine (W6_arr m ρ c 6).trans ((final2 (V5 m ρ) c).trans ?_)
  unfold layer2
  rw [V5_v32 m ρ c, V5_v42 m ρ c, V5_v8 m ρ c, V5_arg9 m ρ c, V5_arg10 m ρ c, V5_v43 m ρ c]
  exact Cert.Sage.outputScaled_eq _ _ _ (clampedK (m ((c : Thread nD τ).loc main_arg2))) _ _ _ (m ((c : Thread nD τ).loc main_arg11)) (invK_apply (m ((c : Thread nD τ).loc main_arg2))) (rowO_apply (m ((c : Thread nD τ).loc main_arg11))) (clampedK_ne_zero (m ((c : Thread nD τ).loc main_arg2)))

/-- The idealized kernel's run, read: the result array ends at the three layers composed, the arguments as launched. -/
theorem kernel_run : θ_run defs (onTc (τ := τ) (main (F := Ideal))) ⟨m, fun _ => 0, ρ⟩ (fun r => ∀ c : Dev nD,
      r.2.mem ((c.tc : Thread nD τ).loc main_v44) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c).1.trans (W6_v44 m ρ c), (h c).2⟩) (run_main m ρ)

end Cert.KernelIdeal.Hand

end
-- ==== Proof.RefTerms.lean ====
/-
  The two host computations every layer of the reference shares, named once.

  `agg h src dst` sums, for every node, the rows of `h` at the sources of the edges that end in the node: the rows are
  looked up at the source indices (an index below zero is first moved up by the number of nodes, the lookup clamps) and
  added into a zero matrix at the destination indices. `clamped dst` counts the edges ending in each node — ones
  added into a zero array at the destination indices — and clamps the count from below by one.
-/
import proofs.«107789_j5557687681533_2_alg».proof.Proof.Gen.ReferenceIdeal
import proofs.«107789_j5557687681533_2_alg».proof.Proof.LayerSpec

noncomputable section

namespace Cert.Sage.Ref

open Cert.ReferenceIdeal Cert.ReferenceIdeal.Gen Idealize.ShloMosaic

/-- The neighbour sum: rows of `h` gathered at the edges' sources, scatter-added at their destinations. -/
def agg (h : (⟨S50000x128, .f32⟩ : BufTy).Contents (Elt Ideal)) (src dst : (⟨S800000, .i32⟩ : BufTy).Contents (Elt Ideal)) :
    (⟨S50000x128, .f32⟩ : BufTy).Contents (Elt Ideal) :=
  Host.scatterAdd (F := Ideal) scatter_S50000x128_S800000x1_S800000x128_1_0_0_1
    (broadcastInDim S50000x128 ![] bcast_S_S50000x128 (constant (F := Ideal) S_ .f32 0x00000000#32))
    (broadcastInDim S800000x1 ![0] bcast_S800000_S800000x1_0 dst)
    (Host.gather gather_S50000x128_S800000x1_S800000x128_1_0_n_n_0_1_1128 h
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32))) src)))

/-- The number of edges ending in each node, clamped from below by one. -/
def clamped (dst : (⟨S800000, .i32⟩ : BufTy).Contents (Elt Ideal)) : (⟨S50000, .f32⟩ : BufTy).Contents (Elt Ideal) :=
  maximumf (F := Ideal)
    (Host.scatterAdd (F := Ideal) scatter_S50000_S800000x1_S800000_n_0_0_1
      (broadcastInDim S50000 ![] bcast_S_S50000 (constant (F := Ideal) S_ .f32 0x00000000#32))
      (broadcastInDim S800000x1 ![0] bcast_S800000_S800000x1_0 dst)
      (broadcastInDim S800000 ![] bcast_S_S800000 (constant (F := Ideal) S_ .f32 0x3F800000#32)))
    (broadcastInDim S50000 ![] bcast_S_S50000 (constant (F := Ideal) S_ .f32 0x3F800000#32))

/-- The three layers composed: the network's output as one function of the twelve arguments. -/
def network (x : (⟨S50000x128, .f32⟩ : BufTy).Contents (Elt Ideal)) (src dst : (⟨S800000, .i32⟩ : BufTy).Contents (Elt Ideal))
    (ws0 wn0 : (⟨S128x128, .f32⟩ : BufTy).Contents (Elt Ideal)) (b0 : (⟨S128, .f32⟩ : BufTy).Contents (Elt Ideal))
    (ws1 wn1 : (⟨S128x128, .f32⟩ : BufTy).Contents (Elt Ideal)) (b1 : (⟨S128, .f32⟩ : BufTy).Contents (Elt Ideal))
    (ws2 wn2 : (⟨S128x47, .f32⟩ : BufTy).Contents (Elt Ideal)) (b2 : (⟨S47, .f32⟩ : BufTy).Contents (Elt Ideal)) :
    (⟨S50000x47, .f32⟩ : BufTy).Contents (Elt Ideal) :=
  let h1 := Cert.Sage.hidden x (agg x src dst) (clamped dst) ws0 wn0 b0
  let h2 := Cert.Sage.hidden h1 (agg h1 src dst) (clamped dst) ws1 wn1 b1
  Cert.Sage.output h2 (agg h2 src dst) (clamped dst) ws2 wn2 b2

end Cert.Sage.Ref

end
-- ==== Proof.RefSide.lean ====
/-
  The reference side: the reference program's result is the three-layer network of its twelve arguments.

  Each layer of the reference is a short chain of whole-array operations: the product of the node features with one
  weight matrix, the product of the neighbour sums divided by the clamped neighbour counts with a second weight matrix,
  their sum, the bias added to every row, and (in the two hidden layers) the maximum with zero. Read at one entry (y, j),

    * a matrix product is the sum over k of a[y,k] · w[k,j];
    * the counts, made a column and spread along the features, are the count of node y, so the divided neighbour sum at
      (y, k) is s[y,k] / mc[y];
    * the bias, made a row and spread over the nodes, is b[j];
    * the spread zero is zero.

  Put together, the chain at (y, j) is  Σₖ h[y,k]·ws[k,j] + Σₖ (s[y,k] / mc[y])·wn[k,j] + b[j], under a maximum with
  zero in a hidden layer: the specification's layer. This is proved once for the 128-feature layers and once for the
  47-feature one, over arbitrary arrays; the three layers of the reference are instances, each fed the one before, with
  the neighbour sum and the clamped count the two host computations every layer shares. A count clamped from below by
  one is never zero.
-/
import proofs.«107789_j5557687681533_2_alg».proof.Proof.Gen.ReferenceIdeal.Read
import proofs.«107789_j5557687681533_2_alg».proof.Proof.RefTerms

noncomputable section

namespace Cert.Sage.Ref

open Cert.ReferenceIdeal Cert.ReferenceIdeal.Gen Idealize.ShloMosaic Idealize.ShloMosaic.TcCoe Idealize.SL.Sem
open Idealize.ShloMosaic.ValueIdx
open scoped BigOperators

/-- A scalar spread over every node reads the scalar at every node. -/
theorem bcastNode_apply (c : (⟨S_, .f32⟩ : BufTy).Contents (Elt Ideal)) (i : S50000.Idx) :
    broadcastInDim S50000 ![] bcast_S_S50000 c i = c ix0 :=
  broadcastInDim_apply _ bcast_S_S50000 c i ix0 (fun a => a.elim0)

/-- The clamped count is never zero. -/
theorem clamped_ne_zero (dst : (⟨S800000, .i32⟩ : BufTy).Contents (Elt Ideal)) (i : S50000.Idx) :
    clamped dst i ≠ 0 := by
  unfold clamped
  rw [maximumf_apply, bcastNode_apply, constant_apply]
  exact Cert.Sage.clamp_ne_zero _

/-- A scalar spread over a 50000 × 128 matrix reads the scalar at every entry. -/
theorem bcastMat_apply (c : (⟨S_, .f32⟩ : BufTy).Contents (Elt Ideal)) (i : S50000x128.Idx) :
    broadcastInDim S50000x128 ![] bcast_S_S50000x128 c i = c ix0 :=
  broadcastInDim_apply _ bcast_S_S50000x128 c i ix0 (fun a => a.elim0)

/-- A per-node value made a column and then spread along the 128 features reads, at entry (y, k), the value at node y. -/
theorem bcastCol_apply (mc : (⟨S50000, .f32⟩ : BufTy).Contents (Elt Ideal)) (y : Fin 50000) (k : Fin 128) :
    broadcastInDim S50000x128 ![0, 1] bcast_S50000x1_S50000x128_0_1
      (broadcastInDim S50000x1 ![0] bcast_S50000_S50000x1_0 mc) (ix2 y k) = mc (ix1 y) := by
  rw [broadcastInDim_apply _ bcast_S50000x1_S50000x128_0_1 _ (ix2 y k) (ix2 y (0 : Fin 1)) (fun a => match a with
    | ⟨0, _⟩ => by show y.val = if (50000 : Nat) = 1 then 0 else y.val; rw [if_neg (by decide)]
    | ⟨1, _⟩ => by show 0 = if (1 : Nat) = 1 then 0 else k.val; rw [if_pos rfl])]
  exact broadcastInDim_apply _ bcast_S50000_S50000x1_0 mc (ix2 y (0 : Fin 1)) (ix1 y) (fun a => match a with
    | ⟨0, _⟩ => by show y.val = if (50000 : Nat) = 1 then 0 else y.val; rw [if_neg (by decide)])

/-- A per-feature value made a row and then spread over the nodes reads, at entry (y, j), the value at feature j. -/
theorem bcastRow128_apply (b : (⟨S128, .f32⟩ : BufTy).Contents (Elt Ideal)) (y : Fin 50000) (j : Fin 128) :
    broadcastInDim S50000x128 ![0, 1] bcast_S1x128_S50000x128_0_1
      (broadcastInDim S1x128 ![1] bcast_S128_S1x128_1 b) (ix2 y j) = b (ix1 j) := by
  rw [broadcastInDim_apply _ bcast_S1x128_S50000x128_0_1 _ (ix2 y j) (ix2 (0 : Fin 1) j) (fun a => match a with
    | ⟨0, _⟩ => by show 0 = if (1 : Nat) = 1 then 0 else y.val; rw [if_pos rfl]
    | ⟨1, _⟩ => by show j.val = if (128 : Nat) = 1 then 0 else j.val; rw [if_neg (by decide)])]
  exact broadcastInDim_apply _ bcast_S128_S1x128_1 b (ix2 (0 : Fin 1) j) (ix1 j) (fun a => match a with
    | ⟨0, _⟩ => by show j.val = if (128 : Nat) = 1 then 0 else j.val; rw [if_neg (by decide)])

/-- The same for the 47 output features of the last layer. -/
theorem bcastRow47_apply (b : (⟨S47, .f32⟩ : BufTy).Contents (Elt Ideal)) (y : Fin 50000) (j : Fin 47) :
    broadcastInDim S50000x47 ![0, 1] bcast_S1x47_S50000x47_0_1
      (broadcastInDim S1x47 ![1] bcast_S47_S1x47_1 b) (ix2 y j) = b (ix1 j) := by
  rw [broadcastInDim_apply _ bcast_S1x47_S50000x47_0_1 _ (ix2 y j) (ix2 (0 : Fin 1) j) (fun a => match a with
    | ⟨0, _⟩ => by show 0 = if (1 : Nat) = 1 then 0 else y.val; rw [if_pos rfl]
    | ⟨1, _⟩ => by show j.val = if (47 : Nat) = 1 then 0 else j.val; rw [if_neg (by decide)])]
  exact broadcastInDim_apply _ bcast_S47_S1x47_1 b (ix2 (0 : Fin 1) j) (ix1 j) (fun a => match a with
    | ⟨0, _⟩ => by show j.val = if (47 : Nat) = 1 then 0 else j.val; rw [if_neg (by decide)])

/-- Entry (y, j) of the host product of a 50000 × 128 matrix with a 128 × 128 one is the sum over k of a(y,k) · w(k,j). -/
theorem dot128_apply (a : FVec Ideal S50000x128 .f32) (w : FVec Ideal S128x128 .f32) (y : Fin 50000) (j : Fin 128) :
    Host.dotGeneral dot_S50000x128_S128x128_S50000x128_1_0_0_1_n_n none a w (ix2 y j)
      = ∑ k : Fin 128, a (ix2 y k) * w (ix2 k j) := by
  refine (Cert.ReferenceIdeal.Read.val_main_v19_apply a w (ix2 y j)).trans (Finset.sum_congr rfl fun k _ => ?_)
  have el : Cert.ReferenceIdeal.Read.lidx_main_v19 (ix2 y j) k = ix2 y k :=
    funext fun c => match c with | ⟨0, _⟩ => rfl | ⟨1, _⟩ => rfl
  have er : Cert.ReferenceIdeal.Read.ridx_main_v19 (ix2 y j) k = ix2 k j :=
    funext fun c => match c with | ⟨0, _⟩ => rfl | ⟨1, _⟩ => rfl
  rw [el, er]

/-- The same for the last layer's product with a 128 × 47 matrix: the contraction index is re-read as its one
    coordinate k, and the two operand indices have the coordinates (y, k) and (k, j). -/
theorem dot47_apply (a : FVec Ideal S50000x128 .f32) (w : FVec Ideal S128x47 .f32) (y : Fin 50000) (j : Fin 47) :
    Host.dotGeneral dot_S50000x128_S128x47_S50000x47_1_0_0_1_n_n none a w (ix2 y j)
      = ∑ k : Fin 128, a (ix2 y k) * w (ix2 k j) := by
  simp only [Host.dotGeneral]
  rw [Ideal.dotGeneral_apply, ← Equiv.sum_comp (contrEquiv1 dot_S50000x128_S128x47_S50000x47_1_0_0_1_n_n 128 rfl rfl).symm]
  refine Finset.sum_congr rfl fun k _ => ?_
  have hk := contrEquiv1_symm_val dot_S50000x128_S128x47_S50000x47_1_0_0_1_n_n 128 rfl rfl k
  have el : dot_S50000x128_S128x47_S50000x47_1_0_0_1_n_n.lhsIdx (ix2 y j)
      ((contrEquiv1 dot_S50000x128_S128x47_S50000x47_1_0_0_1_n_n 128 rfl rfl).symm k) = ix2 y k :=
    funext fun c => Fin.ext (by
      match c with
      | ⟨0, _⟩ => exact Cert.ReferenceIdeal.Read.lhs_main_v71_0 _ _
      | ⟨1, _⟩ => exact (Cert.ReferenceIdeal.Read.lhs_main_v71_1 _ _).trans hk)
  have er : dot_S50000x128_S128x47_S50000x47_1_0_0_1_n_n.rhsIdx (ix2 y j)
      ((contrEquiv1 dot_S50000x128_S128x47_S50000x47_1_0_0_1_n_n 128 rfl rfl).symm k) = ix2 k j :=
    funext fun c => Fin.ext (by
      match c with
      | ⟨0, _⟩ => exact (Cert.ReferenceIdeal.Read.rhs_main_v71_0 _ _).trans hk
      | ⟨1, _⟩ => exact Cert.ReferenceIdeal.Read.rhs_main_v71_1 _ _)
  rw [el, er]

/-- The neighbour sum divided by the count column, at entry (y, k): the sum's entry over the count at node y. -/
theorem mean_apply (s : FVec Ideal S50000x128 .f32) (mc : FVec Ideal S50000 .f32) (y : Fin 50000) (k : Fin 128) :
    Host.divf s (broadcastInDim S50000x128 ![0, 1] bcast_S50000x1_S50000x128_0_1
      (broadcastInDim S50000x1 ![0] bcast_S50000_S50000x1_0 mc)) (ix2 y k)
      = Ideal.div (s (ix2 y k)) (mc (ix1 y)) := by
  rw [hostDivf_apply, bcastCol_apply]

/-- So the product of the divided neighbour sum with a weight matrix sums, over k, the sum's entry over the count at
    node y times the weight. -/
theorem meanSum_apply {N : Nat} (s : FVec Ideal S50000x128 .f32) (mc : FVec Ideal S50000 .f32)
    (wn : FVec Ideal ⟨2, ![128, N]⟩ .f32) (y : Fin 50000) (j : Fin N) :
    ∑ k : Fin 128, Host.divf s (broadcastInDim S50000x128 ![0, 1] bcast_S50000x1_S50000x128_0_1
        (broadcastInDim S50000x1 ![0] bcast_S50000_S50000x1_0 mc)) (ix2 y k) * wn (ix2 k j)
      = ∑ k : Fin 128, Ideal.div (s (ix2 y k)) (mc (ix1 y)) * wn (ix2 k j) :=
  Finset.sum_congr rfl fun k _ => by rw [mean_apply]

/-- A hidden layer of the reference, written operation by operation (two matrix products, the division of the neighbour
    sum by the count column, the bias row spread over the nodes, the maximum with the spread zero), is entry by entry the
    specification's hidden layer. -/
theorem hidden_eq (h s : FVec Ideal S50000x128 .f32) (mc : FVec Ideal S50000 .f32)
    (ws wn : FVec Ideal S128x128 .f32) (b : FVec Ideal S128 .f32) :
    maximumf
      (addf
        (addf
          (Host.dotGeneral dot_S50000x128_S128x128_S50000x128_1_0_0_1_n_n none h ws)
          (Host.dotGeneral dot_S50000x128_S128x128_S50000x128_1_0_0_1_n_n none
            (Host.divf s (broadcastInDim S50000x128 ![0, 1] bcast_S50000x1_S50000x128_0_1
              (broadcastInDim S50000x1 ![0] bcast_S50000_S50000x1_0 mc))) wn))
        (broadcastInDim S50000x128 ![0, 1] bcast_S1x128_S50000x128_0_1
          (broadcastInDim S1x128 ![1] bcast_S128_S1x128_1 b)))
      (broadcastInDim S50000x128 ![] bcast_S_S50000x128 (constant (F := Ideal) S_ .f32 0x00000000#32))
    = Cert.Sage.hidden h s mc ws wn b := by
  funext i
  obtain ⟨y, j, rfl⟩ : ∃ (y : Fin 50000) (j : Fin 128), i = ix2 y j := ⟨i 0, i 1, eq_ix2 i⟩
  rw [maximumf_apply, addf_apply, addf_apply, dot128_apply, dot128_apply, bcastRow128_apply, bcastMat_apply,
    constant_apply, meanSum_apply]
  rfl

/-- The last layer of the reference, the same operations without the maximum and with 47 output features, is entry by
    entry the specification's output layer. -/
theorem output_eq (h s : FVec Ideal S50000x128 .f32) (mc : FVec Ideal S50000 .f32)
    (ws wn : FVec Ideal S128x47 .f32) (b : FVec Ideal S47 .f32) :
    addf
      (addf
        (Host.dotGeneral dot_S50000x128_S128x47_S50000x47_1_0_0_1_n_n none h ws)
        (Host.dotGeneral dot_S50000x128_S128x47_S50000x47_1_0_0_1_n_n none
          (Host.divf s (broadcastInDim S50000x128 ![0, 1] bcast_S50000x1_S50000x128_0_1
            (broadcastInDim S50000x1 ![0] bcast_S50000_S50000x1_0 mc))) wn))
      (broadcastInDim S50000x47 ![0, 1] bcast_S1x47_S50000x47_0_1 (broadcastInDim S1x47 ![1] bcast_S47_S1x47_1 b))
    = Cert.Sage.output h s mc ws wn b := by
  funext i
  obtain ⟨y, j, rfl⟩ : ∃ (y : Fin 50000) (j : Fin 47), i = ix2 y j := ⟨i 0, i 1, eq_ix2 i⟩
  rw [addf_apply, addf_apply, dot47_apply, dot47_apply, bcastRow47_apply, meanSum_apply]
  rfl

/-- The reference's first hidden layer is the specification's hidden layer of the input features, their neighbour sums
    and the clamped counts. -/
theorem layer0 (x0 : (⟨S50000x128, .f32⟩ : BufTy).Contents (Elt Ideal)) (x1 x2 : (⟨S800000, .i32⟩ : BufTy).Contents (Elt Ideal))
    (x3 x4 : (⟨S128x128, .f32⟩ : BufTy).Contents (Elt Ideal)) (x5 : (⟨S128, .f32⟩ : BufTy).Contents (Elt Ideal)) :
    Cert.ReferenceIdeal.Read.val_main_v25 (F := Ideal) x0 x1 x2 x3 x4 x5
      = Cert.Sage.hidden x0 (agg x0 x1 x2) (clamped x2) x3 x4 x5 :=
  hidden_eq x0 (agg x0 x1 x2) (clamped x2) x3 x4 x5

/-- The second hidden layer is the same function of the first layer's result. -/
theorem layer1 (x0 : (⟨S50000x128, .f32⟩ : BufTy).Contents (Elt Ideal)) (x1 x2 : (⟨S800000, .i32⟩ : BufTy).Contents (Elt Ideal))
    (x3 x4 : (⟨S128x128, .f32⟩ : BufTy).Contents (Elt Ideal)) (x5 : (⟨S128, .f32⟩ : BufTy).Contents (Elt Ideal))
    (x6 x7 : (⟨S128x128, .f32⟩ : BufTy).Contents (Elt Ideal)) (x8 : (⟨S128, .f32⟩ : BufTy).Contents (Elt Ideal)) :
    Cert.ReferenceIdeal.Read.val_main_v51 (F := Ideal) x0 x1 x2 x3 x4 x5 x6 x7 x8
      = Cert.Sage.hidden (Cert.ReferenceIdeal.Read.val_main_v25 (F := Ideal) x0 x1 x2 x3 x4 x5)
          (agg (Cert.ReferenceIdeal.Read.val_main_v25 (F := Ideal) x0 x1 x2 x3 x4 x5) x1 x2) (clamped x2) x6 x7 x8 :=
  hidden_eq (Cert.ReferenceIdeal.Read.val_main_v25 (F := Ideal) x0 x1 x2 x3 x4 x5)
    (agg (Cert.ReferenceIdeal.Read.val_main_v25 (F := Ideal) x0 x1 x2 x3 x4 x5) x1 x2) (clamped x2) x6 x7 x8

/-- The last layer is the specification's output layer of the second layer's result. -/
theorem layer2 (x0 : (⟨S50000x128, .f32⟩ : BufTy).Contents (Elt Ideal)) (x1 x2 : (⟨S800000, .i32⟩ : BufTy).Contents (Elt Ideal))
    (x3 x4 : (⟨S128x128, .f32⟩ : BufTy).Contents (Elt Ideal)) (x5 : (⟨S128, .f32⟩ : BufTy).Contents (Elt Ideal))
    (x6 x7 : (⟨S128x128, .f32⟩ : BufTy).Contents (Elt Ideal)) (x8 : (⟨S128, .f32⟩ : BufTy).Contents (Elt Ideal))
    (x9 x10 : (⟨S128x47, .f32⟩ : BufTy).Contents (Elt Ideal)) (x11 : (⟨S47, .f32⟩ : BufTy).Contents (Elt Ideal)) :
    Cert.ReferenceIdeal.Read.val_main_v76 (F := Ideal) x0 x1 x2 x3 x4 x5 x6 x7 x8 x9 x10 x11
      = Cert.Sage.output (Cert.ReferenceIdeal.Read.val_main_v51 (F := Ideal) x0 x1 x2 x3 x4 x5 x6 x7 x8)
          (agg (Cert.ReferenceIdeal.Read.val_main_v51 (F := Ideal) x0 x1 x2 x3 x4 x5 x6 x7 x8) x1 x2) (clamped x2)
          x9 x10 x11 :=
  output_eq (Cert.ReferenceIdeal.Read.val_main_v51 (F := Ideal) x0 x1 x2 x3 x4 x5 x6 x7 x8)
    (agg (Cert.ReferenceIdeal.Read.val_main_v51 (F := Ideal) x0 x1 x2 x3 x4 x5 x6 x7 x8) x1 x2) (clamped x2) x9 x10 x11

/-- The reference's result term is the three layers composed. -/
theorem ref_result (m : (ℓ : Loc nD τ sig) → Buf (Elt Ideal) ℓ) (c : Dev nD) :
    Cert.ReferenceIdeal.Value.res_main_v76 (F := Ideal) m c
      = network (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11)) := by
  rw [Cert.ReferenceIdeal.Read.val_main_v76_eq, layer2, layer1, layer0]
  rfl

end Cert.Sage.Ref

end
-- ==== Proof.Bridge.lean ====
/-
  The two programs compute one function.

  Both run the same three layers. Layer by layer the idealized kernel's result array and the reference's value are the
  layer function of `LayerSpec` applied to the same features, the same neighbour sum and the same clamped counts: the
  neighbour sums and the counts are the same host operations in both programs, and the kernel's product with the
  reciprocal count is the reference's quotient because a clamped count is never zero.
-/
import proofs.«107789_j5557687681533_2_alg».proof.Defs
import proofs.«107789_j5557687681533_2_alg».proof.Proof.Gen.Kernel.Frame
import proofs.«107789_j5557687681533_2_alg».proof.Proof.Gen.Pre_finite_inputs
import proofs.«107789_j5557687681533_2_alg».proof.Proof.KHost
import proofs.«107789_j5557687681533_2_alg».proof.Proof.RefSide

noncomputable section

namespace Cert.Sage

open Idealize.ShloMosaic Idealize.ShloMosaic.TcCoe Idealize.SL.Sem

/-- The kernel program's neighbour sum is the reference's: the same operations. -/
theorem aggK_eq (h : (⟨Cert.KernelIdeal.S50000x128, .f32⟩ : BufTy).Contents (Elt Ideal))
    (src dst : (⟨Cert.KernelIdeal.S800000, .i32⟩ : BufTy).Contents (Elt Ideal)) :
    Cert.KernelIdeal.Hand.aggK h src dst = Cert.Sage.Ref.agg h src dst := rfl

/-- The kernel program's clamped count is the reference's: the same operations. -/
theorem clampedK_eq (dst : (⟨Cert.KernelIdeal.S800000, .i32⟩ : BufTy).Contents (Elt Ideal)) :
    Cert.KernelIdeal.Hand.clampedK dst = Cert.Sage.Ref.clamped dst := rfl

end Cert.Sage

namespace Cert.Proof.Claims

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: the idealization is the program's own text read on the extended reals. -/
theorem preserves : Cert.preserves_Kernel_KernelIdeal := trivial

/-- From memories agreeing on the twelve arguments both programs end with the three layers composed. -/
theorem algebraic : Cert.algebraic_KernelIdeal_ReferenceIdeal := by
  intro m ρ m' ρ' _ hagree
  refine ⟨fun c => Cert.KernelIdeal.Hand.result m c, Cert.KernelIdeal.Hand.kernel_run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11⟩ := hagree c
  rw [Cert.Sage.Ref.ref_result m' c, e0, e1, e2, e3, e4, e5, e6, e7, e8, e9, e10, e11]
  simp only [Cert.Sage.Ref.network, Cert.KernelIdeal.Hand.result, Cert.KernelIdeal.Hand.H2, Cert.KernelIdeal.Hand.H1,
    Cert.Sage.aggK_eq, Cert.Sage.clampedK_eq]

end Cert.Proof.Claims

end
-- ==== Proof.lean ====
/-
  A three-layer mean-aggregating graph network: a Pallas program against its jnp reference, on the extended reals.

  Each layer maps node features h to  h·W_self + mean_{edges into the node}(h[source])·W_neigh + b, the first two
  layers followed by a rectifier. The kernel program computes the neighbour sums and the reciprocal clamped counts
  on the host and fuses, per block of 5000 nodes, the scaling of the sums, the two matrix products, the bias and
  the rectifier; the reference divides the sums by the clamped counts and uses host matrix products. The modules:
  `LayerSpec` (the layer as a function, and x / c = x · (1 / c) for c ≠ 0), `Pay` (a kernel step's stored block entry
  by entry), `Region0` … `Region2` (each call's result array as the layer of the arrays it is entered with), `KernelRun`
  and `KHost` (the program's run and the host operations between the calls), `RefTerms` and `RefSide` (the
  reference's result as the same composition) and `Bridge` (the claims).
-/
import proofs.«107789_j5557687681533_2_alg».proof.Defs
import proofs.«107789_j5557687681533_2_alg».proof.Proof.Gen.Kernel
import proofs.«107789_j5557687681533_2_alg».proof.Proof.Gen.KernelIdeal
import proofs.«107789_j5557687681533_2_alg».proof.Proof.Gen.ReferenceIdeal
import proofs.«107789_j5557687681533_2_alg».proof.Proof.Gen.Pre_finite_inputs
import proofs.«107789_j5557687681533_2_alg».proof.Proof.Bridge
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Cert.Proof.Claims.frame_k, Cert.Proof.Claims.frame_ki, Cert.Proof.Claims.frame_ri, Cert.Proof.Claims.preserves, Cert.Proof.Claims.algebraic⟩

end Cert.Proof

end
